-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S4x2048x4096 .f32) (main_arg1 : IVec S4096x4096 32) (main_arg2 : FVec F S4096x32 .f32) (main_arg3 : FVec F S4096x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096x32 : Shape := ⟨2, ![4096, 32]⟩
abbrev S8192x4096 : Shape := ⟨2, ![8192, 4096]⟩
abbrev S1024x4096 : Shape := ⟨2, ![1024, 4096]⟩
abbrev S1024x32 : Shape := ⟨2, ![1024, 32]⟩
abbrev S1024x128 : Shape := ⟨2, ![1024, 128]⟩
abbrev S1024x1 : Shape := ⟨2, ![1024, 1]⟩
abbrev S2048x1024 : Shape := ⟨2, ![2048, 1024]⟩
abbrev S1024x1024 : Shape := ⟨2, ![1024, 1024]⟩

abbrev nBuf : Space → Nat
  | .hbm => 8
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S8192x4096, .f32⟩
  | .hbm, ⟨5, _⟩ => ⟨S4096x4096, .bf16⟩
  | .hbm, ⟨6, _⟩ => ⟨S8192x4096, .f32⟩
  | .hbm, ⟨7, _⟩ => ⟨S4x2048x4096, .f32⟩
  | .local _ .vmem, ⟨0, _⟩ => ⟨S1024x4096, .i32⟩
  | .local _ .vmem, ⟨1, _⟩ => ⟨S1024x4096, .i32⟩
  | .local _ .vmem, ⟨2, _⟩ => ⟨S1024x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S1024x4096, .bf16⟩
  | .local _ .vmem, ⟨7, _⟩ => ⟨S1024x4096, .bf16⟩
  | .local _ .vmem, ⟨8, _⟩ => ⟨S2048x1024, .f32⟩
  | .local _ .vmem, ⟨9, _⟩ => ⟨S2048x1024, .f32⟩
  | .local _ .vmem, ⟨10, _⟩ => ⟨S1024x1024, .bf16⟩
  | .local _ .vmem, ⟨11, _⟩ => ⟨S1024x1024, .bf16⟩
  | .local _ .vmem, ⟨12, _⟩ => ⟨S2048x1024, .f32⟩
  | .local _ .vmem, ⟨13, _⟩ => ⟨S2048x1024, .f32⟩
  | .local _ .vmem, ⟨14, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S4x2048x4096_S8192x4096 : S4x2048x4096.ShapeCasts S8192x4096
  inb_S1024x4096_S1024x128_0_0 : ∀ a, (![0, 0] : Fin 2 → Nat) a + S1024x128.size a ≤ S1024x4096.size a
  h_S1024x128 : 0 < S1024x128.numel
  inb_S1024x32_S1024x1_0_0 : ∀ a, (![0, 0] : Fin 2 → Nat) a + S1024x1.size a ≤ S1024x32.size a
  h_S1024x1 : 0 < S1024x1.numel
  broadcasts_S1024x1_S1024x128 : S1024x1.Broadcasts S1024x128
  bitsLt_bf16_f32 : FTy.bits .bf16 < FTy.bits .f32
  packedbf16_S1024x4096_S1024x128_0_0 : (Rect.unit (s := S1024x4096) ![0, 0] S1024x128.size inb_S1024x4096_S1024x128_0_0).PackedRows (EltTy.packing .bf16)
  inb_S1024x4096_S1024x128_0_128 : ∀ a, (![0, 128] : Fin 2 → Nat) a + S1024x128.size a ≤ S1024x4096.size a
  inb_S1024x32_S1024x1_0_1 : ∀ a, (![0, 1] : Fin 2 → Nat) a + S1024x1.size a ≤ S1024x32.size a
  packedbf16_S1024x4096_S1024x128_0_128 : (Rect.unit (s := S1024x4096) ![0, 128] S1024x128.size inb_S1024x4096_S1024x128_0_128).PackedRows (EltTy.packing .bf16)
  inb_S1024x4096_S1024x128_0_256 : ∀ a, (![0, 256] : Fin 2 → Nat) a + S1024x128.size a ≤ S1024x4096.size a
  inb_S1024x32_S1024x1_0_2 : ∀ a, (![0, 2] : Fin 2 → Nat) a + S1024x1.size a ≤ S1024x32.size a
  packedbf16_S1024x4096_S1024x128_0_256 : (Rect.unit (s := S1024x4096) ![0, 256] S1024x128.size inb_S1024x4096_S1024x128_0_256).PackedRows (EltTy.packing .bf16)
  inb_S1024x4096_S1024x128_0_384 : ∀ a, (![0, 384] : Fin 2 → Nat) a + S1024x128.size a ≤ S1024x4096.size a
  inb_S1024x32_S1024x1_0_3 : ∀ a, (![0, 3] : Fin 2 → Nat) a + S1024x1.size a ≤ S1024x32.size a
  packedbf16_S1024x4096_S1024x128_0_384 : (Rect.unit (s := S1024x4096) ![0, 384] S1024x128.size inb_S1024x4096_S1024x128_0_384).PackedRows (EltTy.packing .bf16)
  inb_S1024x4096_S1024x128_0_512 : ∀ a, (![0, 512] : Fin 2 → Nat) a + S1024x128.size a ≤ S1024x4096.size a
  inb_S1024x32_S1024x1_0_4 : ∀ a, (![0, 4] : Fin 2 → Nat) a + S1024x1.size a ≤ S1024x32.size a
  packedbf16_S1024x4096_S1024x128_0_512 : (Rect.unit (s := S1024x4096) ![0, 512] S1024x128.size inb_S1024x4096_S1024x128_0_512).PackedRows (EltTy.packing .bf16)
  inb_S1024x4096_S1024x128_0_640 : ∀ a, (![0, 640] : Fin 2 → Nat) a + S1024x128.size a ≤ S1024x4096.size a
  inb_S1024x32_S1024x1_0_5 : ∀ a, (![0, 5] : Fin 2 → Nat) a + S1024x1.size a ≤ S1024x32.size a
  packedbf16_S1024x4096_S1024x128_0_640 : (Rect.unit (s := S1024x4096) ![0, 640] S1024x128.size inb_S1024x4096_S1024x128_0_640).PackedRows (EltTy.packing .bf16)
  inb_S1024x4096_S1024x128_0_768 : ∀ a, (![0, 768] : Fin 2 → Nat) a + S1024x128.size a ≤ S1024x4096.size a
  inb_S1024x32_S1024x1_0_6 : ∀ a, (![0, 6] : Fin 2 → Nat) a + S1024x1.size a ≤ S1024x32.size a
  packedbf16_S1024x4096_S1024x128_0_768 : (Rect.unit (s := S1024x4096) ![0, 768] S1024x128.size inb_S1024x4096_S1024x128_0_768).PackedRows (EltTy.packing .bf16)
  inb_S1024x4096_S1024x128_0_896 : ∀ a, (![0, 896] : Fin 2 → Nat) a + S1024x128.size a ≤ S1024x4096.size a
  inb_S1024x32_S1024x1_0_7 : ∀ a, (![0, 7] : Fin 2 → Nat) a + S1024x1.size a ≤ S1024x32.size a
  packedbf16_S1024x4096_S1024x128_0_896 : (Rect.unit (s := S1024x4096) ![0, 896] S1024x128.size inb_S1024x4096_S1024x128_0_896).PackedRows (EltTy.packing .bf16)
  inb_S1024x4096_S1024x128_0_1024 : ∀ a, (![0, 1024] : Fin 2 → Nat) a + S1024x128.size a ≤ S1024x4096.size a
  inb_S1024x32_S1024x1_0_8 : ∀ a, (![0, 8] : Fin 2 → Nat) a + S1024x1.size a ≤ S1024x32.size a
  packedbf16_S1024x4096_S1024x128_0_1024 : (Rect.unit (s := S1024x4096) ![0, 1024] S1024x128.size inb_S1024x4096_S1024x128_0_1024).PackedRows (EltTy.packing .bf16)
  inb_S1024x4096_S1024x128_0_1152 : ∀ a, (![0, 1152] : Fin 2 → Nat) a + S1024x128.size a ≤ S1024x4096.size a
  inb_S1024x32_S1024x1_0_9 : ∀ a, (![0, 9] : Fin 2 → Nat) a + S1024x1.size a ≤ S1024x32.size a
  packedbf16_S1024x4096_S1024x128_0_1152 : (Rect.unit (s := S1024x4096) ![0, 1152] S1024x128.size inb_S1024x4096_S1024x128_0_1152).PackedRows (EltTy.packing .bf16)
  inb_S1024x4096_S1024x128_0_1280 : ∀ a, (![0, 1280] : Fin 2 → Nat) a + S1024x128.size a ≤ S1024x4096.size a
  inb_S1024x32_S1024x1_0_10 : ∀ a, (![0, 10] : Fin 2 → Nat) a + S1024x1.size a ≤ S1024x32.size a
  packedbf16_S1024x4096_S1024x128_0_1280 : (Rect.unit (s := S1024x4096) ![0, 1280] S1024x128.size inb_S1024x4096_S1024x128_0_1280).PackedRows (EltTy.packing .bf16)
  inb_S1024x4096_S1024x128_0_1408 : ∀ a, (![0, 1408] : Fin 2 → Nat) a + S1024x128.size a ≤ S1024x4096.size a
  inb_S1024x32_S1024x1_0_11 : ∀ a, (![0, 11] : Fin 2 → Nat) a + S1024x1.size a ≤ S1024x32.size a
  packedbf16_S1024x4096_S1024x128_0_1408 : (Rect.unit (s := S1024x4096) ![0, 1408] S1024x128.size inb_S1024x4096_S1024x128_0_1408).PackedRows (EltTy.packing .bf16)
  inb_S1024x4096_S1024x128_0_1536 : ∀ a, (![0, 1536] : Fin 2 → Nat) a + S1024x128.size a ≤ S1024x4096.size a
  inb_S1024x32_S1024x1_0_12 : ∀ a, (![0, 12] : Fin 2 → Nat) a + S1024x1.size a ≤ S1024x32.size a
  packedbf16_S1024x4096_S1024x128_0_1536 : (Rect.unit (s := S1024x4096) ![0, 1536] S1024x128.size inb_S1024x4096_S1024x128_0_1536).PackedRows (EltTy.packing .bf16)
  inb_S1024x4096_S1024x128_0_1664 : ∀ a, (![0, 1664] : Fin 2 → Nat) a + S1024x128.size a ≤ S1024x4096.size a
  inb_S1024x32_S1024x1_0_13 : ∀ a, (![0, 13] : Fin 2 → Nat) a + S1024x1.size a ≤ S1024x32.size a
  packedbf16_S1024x4096_S1024x128_0_1664 : (Rect.unit (s := S1024x4096) ![0, 1664] S1024x128.size inb_S1024x4096_S1024x128_0_1664).PackedRows (EltTy.packing .bf16)
  inb_S1024x4096_S1024x128_0_1792 : ∀ a, (![0, 1792] : Fin 2 → Nat) a + S1024x128.size a ≤ S1024x4096.size a
  inb_S1024x32_S1024x1_0_14 : ∀ a, (![0, 14] : Fin 2 → Nat) a + S1024x1.size a ≤ S1024x32.size a
  packedbf16_S1024x4096_S1024x128_0_1792 : (Rect.unit (s := S1024x4096) ![0, 1792] S1024x128.size inb_S1024x4096_S1024x128_0_1792).PackedRows (EltTy.packing .bf16)
  inb_S1024x4096_S1024x128_0_1920 : ∀ a, (![0, 1920] : Fin 2 → Nat) a + S1024x128.size a ≤ S1024x4096.size a
  inb_S1024x32_S1024x1_0_15 : ∀ a, (![0, 15] : Fin 2 → Nat) a + S1024x1.size a ≤ S1024x32.size a
  packedbf16_S1024x4096_S1024x128_0_1920 : (Rect.unit (s := S1024x4096) ![0, 1920] S1024x128.size inb_S1024x4096_S1024x128_0_1920).PackedRows (EltTy.packing .bf16)
  inb_S1024x4096_S1024x128_0_2048 : ∀ a, (![0, 2048] : Fin 2 → Nat) a + S1024x128.size a ≤ S1024x4096.size a
  inb_S1024x32_S1024x1_0_16 : ∀ a, (![0, 16] : Fin 2 → Nat) a + S1024x1.size a ≤ S1024x32.size a
  packedbf16_S1024x4096_S1024x128_0_2048 : (Rect.unit (s := S1024x4096) ![0, 2048] S1024x128.size inb_S1024x4096_S1024x128_0_2048).PackedRows (EltTy.packing .bf16)
  inb_S1024x4096_S1024x128_0_2176 : ∀ a, (![0, 2176] : Fin 2 → Nat) a + S1024x128.size a ≤ S1024x4096.size a
  inb_S1024x32_S1024x1_0_17 : ∀ a, (![0, 17] : Fin 2 → Nat) a + S1024x1.size a ≤ S1024x32.size a
  packedbf16_S1024x4096_S1024x128_0_2176 : (Rect.unit (s := S1024x4096) ![0, 2176] S1024x128.size inb_S1024x4096_S1024x128_0_2176).PackedRows (EltTy.packing .bf16)
  inb_S1024x4096_S1024x128_0_2304 : ∀ a, (![0, 2304] : Fin 2 → Nat) a + S1024x128.size a ≤ S1024x4096.size a
  inb_S1024x32_S1024x1_0_18 : ∀ a, (![0, 18] : Fin 2 → Nat) a + S1024x1.size a ≤ S1024x32.size a
  packedbf16_S1024x4096_S1024x128_0_2304 : (Rect.unit (s := S1024x4096) ![0, 2304] S1024x128.size inb_S1024x4096_S1024x128_0_2304).PackedRows (EltTy.packing .bf16)
  inb_S1024x4096_S1024x128_0_2432 : ∀ a, (![0, 2432] : Fin 2 → Nat) a + S1024x128.size a ≤ S1024x4096.size a
  inb_S1024x32_S1024x1_0_19 : ∀ a, (![0, 19] : Fin 2 → Nat) a + S1024x1.size a ≤ S1024x32.size a
  packedbf16_S1024x4096_S1024x128_0_2432 : (Rect.unit (s := S1024x4096) ![0, 2432] S1024x128.size inb_S1024x4096_S1024x128_0_2432).PackedRows (EltTy.packing .bf16)
  inb_S1024x4096_S1024x128_0_2560 : ∀ a, (![0, 2560] : Fin 2 → Nat) a + S1024x128.size a ≤ S1024x4096.size a
  inb_S1024x32_S1024x1_0_20 : ∀ a, (![0, 20] : Fin 2 → Nat) a + S1024x1.size a ≤ S1024x32.size a
  packedbf16_S1024x4096_S1024x128_0_2560 : (Rect.unit (s := S1024x4096) ![0, 2560] S1024x128.size inb_S1024x4096_S1024x128_0_2560).PackedRows (EltTy.packing .bf16)
  inb_S1024x4096_S1024x128_0_2688 : ∀ a, (![0, 2688] : Fin 2 → Nat) a + S1024x128.size a ≤ S1024x4096.size a
  inb_S1024x32_S1024x1_0_21 : ∀ a, (![0, 21] : Fin 2 → Nat) a + S1024x1.size a ≤ S1024x32.size a
  packedbf16_S1024x4096_S1024x128_0_2688 : (Rect.unit (s := S1024x4096) ![0, 2688] S1024x128.size inb_S1024x4096_S1024x128_0_2688).PackedRows (EltTy.packing .bf16)
  inb_S1024x4096_S1024x128_0_2816 : ∀ a, (![0, 2816] : Fin 2 → Nat) a + S1024x128.size a ≤ S1024x4096.size a
  inb_S1024x32_S1024x1_0_22 : ∀ a, (![0, 22] : Fin 2 → Nat) a + S1024x1.size a ≤ S1024x32.size a
  packedbf16_S1024x4096_S1024x128_0_2816 : (Rect.unit (s := S1024x4096) ![0, 2816] S1024x128.size inb_S1024x4096_S1024x128_0_2816).PackedRows (EltTy.packing .bf16)
  inb_S1024x4096_S1024x128_0_2944 : ∀ a, (![0, 2944] : Fin 2 → Nat) a + S1024x128.size a ≤ S1024x4096.size a
  inb_S1024x32_S1024x1_0_23 : ∀ a, (![0, 23] : Fin 2 → Nat) a + S1024x1.size a ≤ S1024x32.size a
  packedbf16_S1024x4096_S1024x128_0_2944 : (Rect.unit (s := S1024x4096) ![0, 2944] S1024x128.size inb_S1024x4096_S1024x128_0_2944).PackedRows (EltTy.packing .bf16)
  inb_S1024x4096_S1024x128_0_3072 : ∀ a, (![0, 3072] : Fin 2 → Nat) a + S1024x128.size a ≤ S1024x4096.size a
  inb_S1024x32_S1024x1_0_24 : ∀ a, (![0, 24] : Fin 2 → Nat) a + S1024x1.size a ≤ S1024x32.size a
  packedbf16_S1024x4096_S1024x128_0_3072 : (Rect.unit (s := S1024x4096) ![0, 3072] S1024x128.size inb_S1024x4096_S1024x128_0_3072).PackedRows (EltTy.packing .bf16)
  inb_S1024x4096_S1024x128_0_3200 : ∀ a, (![0, 3200] : Fin 2 → Nat) a + S1024x128.size a ≤ S1024x4096.size a
  inb_S1024x32_S1024x1_0_25 : ∀ a, (![0, 25] : Fin 2 → Nat) a + S1024x1.size a ≤ S1024x32.size a
  packedbf16_S1024x4096_S1024x128_0_3200 : (Rect.unit (s := S1024x4096) ![0, 3200] S1024x128.size inb_S1024x4096_S1024x128_0_3200).PackedRows (EltTy.packing .bf16)
  inb_S1024x4096_S1024x128_0_3328 : ∀ a, (![0, 3328] : Fin 2 → Nat) a + S1024x128.size a ≤ S1024x4096.size a
  inb_S1024x32_S1024x1_0_26 : ∀ a, (![0, 26] : Fin 2 → Nat) a + S1024x1.size a ≤ S1024x32.size a
  packedbf16_S1024x4096_S1024x128_0_3328 : (Rect.unit (s := S1024x4096) ![0, 3328] S1024x128.size inb_S1024x4096_S1024x128_0_3328).PackedRows (EltTy.packing .bf16)
  inb_S1024x4096_S1024x128_0_3456 : ∀ a, (![0, 3456] : Fin 2 → Nat) a + S1024x128.size a ≤ S1024x4096.size a
  inb_S1024x32_S1024x1_0_27 : ∀ a, (![0, 27] : Fin 2 → Nat) a + S1024x1.size a ≤ S1024x32.size a
  packedbf16_S1024x4096_S1024x128_0_3456 : (Rect.unit (s := S1024x4096) ![0, 3456] S1024x128.size inb_S1024x4096_S1024x128_0_3456).PackedRows (EltTy.packing .bf16)
  inb_S1024x4096_S1024x128_0_3584 : ∀ a, (![0, 3584] : Fin 2 → Nat) a + S1024x128.size a ≤ S1024x4096.size a
  inb_S1024x32_S1024x1_0_28 : ∀ a, (![0, 28] : Fin 2 → Nat) a + S1024x1.size a ≤ S1024x32.size a
  packedbf16_S1024x4096_S1024x128_0_3584 : (Rect.unit (s := S1024x4096) ![0, 3584] S1024x128.size inb_S1024x4096_S1024x128_0_3584).PackedRows (EltTy.packing .bf16)
  inb_S1024x4096_S1024x128_0_3712 : ∀ a, (![0, 3712] : Fin 2 → Nat) a + S1024x128.size a ≤ S1024x4096.size a
  inb_S1024x32_S1024x1_0_29 : ∀ a, (![0, 29] : Fin 2 → Nat) a + S1024x1.size a ≤ S1024x32.size a
  packedbf16_S1024x4096_S1024x128_0_3712 : (Rect.unit (s := S1024x4096) ![0, 3712] S1024x128.size inb_S1024x4096_S1024x128_0_3712).PackedRows (EltTy.packing .bf16)
  inb_S1024x4096_S1024x128_0_3840 : ∀ a, (![0, 3840] : Fin 2 → Nat) a + S1024x128.size a ≤ S1024x4096.size a
  inb_S1024x32_S1024x1_0_30 : ∀ a, (![0, 30] : Fin 2 → Nat) a + S1024x1.size a ≤ S1024x32.size a
  packedbf16_S1024x4096_S1024x128_0_3840 : (Rect.unit (s := S1024x4096) ![0, 3840] S1024x128.size inb_S1024x4096_S1024x128_0_3840).PackedRows (EltTy.packing .bf16)
  inb_S1024x4096_S1024x128_0_3968 : ∀ a, (![0, 3968] : Fin 2 → Nat) a + S1024x128.size a ≤ S1024x4096.size a
  inb_S1024x32_S1024x1_0_31 : ∀ a, (![0, 31] : Fin 2 → Nat) a + S1024x1.size a ≤ S1024x32.size a
  packedbf16_S1024x4096_S1024x128_0_3968 : (Rect.unit (s := S1024x4096) ![0, 3968] S1024x128.size inb_S1024x4096_S1024x128_0_3968).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .i32 = 32 ∨ (Rect.block (s := S4096x4096) S1024x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S4096x32.size a
  hwx0_1 : ∀ i : grid0.Coords, EltTy.bits .f32 = 32 ∨ (Rect.block (s := S4096x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S4096x32.size a
  hwx0_2 : ∀ i : grid0.Coords, EltTy.bits .f32 = 32 ∨ (Rect.block (s := S4096x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S4096x4096.size a
  hwx0_3 : ∀ i : grid0.Coords, EltTy.bits .bf16 = 32 ∨ (Rect.block (s := S4096x4096) S1024x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .f32 = 32 ∨ (Rect.block (s := S8192x4096) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S8192x4096.size a
  hwx1_2 : ∀ i : grid1.Coords, EltTy.bits .f32 = 32 ∨ (Rect.block (s := S8192x4096) S2048x1024.size (cc1_transform_2 i) (hinb1_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x32 : Shape := ⟨2, ![4096, 32]⟩
abbrev S4096x32x128 : Shape := ⟨3, ![4096, 32, 128]⟩
abbrev S4096x32x1 : Shape := ⟨3, ![4096, 32, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096x4096, .f32⟩
  | .hbm, ⟨5, _⟩ => ⟨S4096x32x128, .f32⟩
  | .hbm, ⟨6, _⟩ => ⟨S4096x32x1, .f32⟩
  | .hbm, ⟨7, _⟩ => ⟨S4096x32x128, .f32⟩
  | .hbm, ⟨8, _⟩ => ⟨S4096x32x128, .f32⟩
  | .hbm, ⟨9, _⟩ => ⟨S4096x32x1, .f32⟩
  | .hbm, ⟨10, _⟩ => ⟨S4096x32x128, .f32⟩
  | .hbm, ⟨11, _⟩ => ⟨S4096x32x128, .f32⟩
  | .hbm, ⟨12, _⟩ => ⟨S4096x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.DeqFrame.lean ====
/-
  The dequantization pass as one pipelined region, for any float semantics.

  A point of the grid handles 1024 rows of the weight: it finds a block of integer codes [1024, 4096] and the
  blocks [1024, 32] of the per-group scales and offsets, and fills a block [1024, 4096] of the dequantized
  weight in 32 vertical slabs of 128 columns. Slab g is computed from the slab g of the codes and from column g
  of the scales and of the offsets: code * scale - offset, rounded to the narrower format. The 32 slabs tile the
  block, so what the point leaves in the output block is a function of the three input blocks alone: the slabs'
  contents laid side by side (`out0_3`). The proof data of the region say exactly that, and the body obligation is
  the run of the 32 groups one after the other from the three input blocks held unchanged.
-/
import proofs.«132169_j81449759801528_2_alg».proof.Proof.Gen.KernelIdeal.Launch
import proofs.«132169_j81449759801528_2_alg».proof.Proof.Gen.KernelIdeal.Skeleton
import proofs.«132169_j81449759801528_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Deq

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The blocks the windows hold -/

/-- The block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the block was moved in there or was
    already there: for any proof data over the arrays `V` whose body leaves the block in place. Window 0. -/
theorem held0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current buffer holds its block at every point, whether the block was moved in there or was
    already there: for any proof data over the arrays `V` whose body leaves the block in place. Window 1. -/
theorem held0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current buffer holds its block at every point, whether the block was moved in there or was
    already there: for any proof data over the arrays `V` whose body leaves the block in place. Window 2. -/
theorem held0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- Columns 0 to 127 of a [1024, 4096] block: the slab of group 0. -/
abbrev slab0 : Rect S1024x4096 := Rect.unit (s := S1024x4096) ![0, 0] S1024x128.size inb_S1024x4096_S1024x128_0_0
/-- Column 0 of a [1024, 32] block: the parameters of group 0. -/
abbrev gcol0 : Rect S1024x32 := Rect.unit (s := S1024x32) ![0, 0] S1024x1.size inb_S1024x32_S1024x1_0_0
/-- Columns 128 to 255 of a [1024, 4096] block: the slab of group 1. -/
abbrev slab1 : Rect S1024x4096 := Rect.unit (s := S1024x4096) ![0, 128] S1024x128.size inb_S1024x4096_S1024x128_0_128
/-- Column 1 of a [1024, 32] block: the parameters of group 1. -/
abbrev gcol1 : Rect S1024x32 := Rect.unit (s := S1024x32) ![0, 1] S1024x1.size inb_S1024x32_S1024x1_0_1
/-- Columns 256 to 383 of a [1024, 4096] block: the slab of group 2. -/
abbrev slab2 : Rect S1024x4096 := Rect.unit (s := S1024x4096) ![0, 256] S1024x128.size inb_S1024x4096_S1024x128_0_256
/-- Column 2 of a [1024, 32] block: the parameters of group 2. -/
abbrev gcol2 : Rect S1024x32 := Rect.unit (s := S1024x32) ![0, 2] S1024x1.size inb_S1024x32_S1024x1_0_2
/-- Columns 384 to 511 of a [1024, 4096] block: the slab of group 3. -/
abbrev slab3 : Rect S1024x4096 := Rect.unit (s := S1024x4096) ![0, 384] S1024x128.size inb_S1024x4096_S1024x128_0_384
/-- Column 3 of a [1024, 32] block: the parameters of group 3. -/
abbrev gcol3 : Rect S1024x32 := Rect.unit (s := S1024x32) ![0, 3] S1024x1.size inb_S1024x32_S1024x1_0_3
/-- Columns 512 to 639 of a [1024, 4096] block: the slab of group 4. -/
abbrev slab4 : Rect S1024x4096 := Rect.unit (s := S1024x4096) ![0, 512] S1024x128.size inb_S1024x4096_S1024x128_0_512
/-- Column 4 of a [1024, 32] block: the parameters of group 4. -/
abbrev gcol4 : Rect S1024x32 := Rect.unit (s := S1024x32) ![0, 4] S1024x1.size inb_S1024x32_S1024x1_0_4
/-- Columns 640 to 767 of a [1024, 4096] block: the slab of group 5. -/
abbrev slab5 : Rect S1024x4096 := Rect.unit (s := S1024x4096) ![0, 640] S1024x128.size inb_S1024x4096_S1024x128_0_640
/-- Column 5 of a [1024, 32] block: the parameters of group 5. -/
abbrev gcol5 : Rect S1024x32 := Rect.unit (s := S1024x32) ![0, 5] S1024x1.size inb_S1024x32_S1024x1_0_5
/-- Columns 768 to 895 of a [1024, 4096] block: the slab of group 6. -/
abbrev slab6 : Rect S1024x4096 := Rect.unit (s := S1024x4096) ![0, 768] S1024x128.size inb_S1024x4096_S1024x128_0_768
/-- Column 6 of a [1024, 32] block: the parameters of group 6. -/
abbrev gcol6 : Rect S1024x32 := Rect.unit (s := S1024x32) ![0, 6] S1024x1.size inb_S1024x32_S1024x1_0_6
/-- Columns 896 to 1023 of a [1024, 4096] block: the slab of group 7. -/
abbrev slab7 : Rect S1024x4096 := Rect.unit (s := S1024x4096) ![0, 896] S1024x128.size inb_S1024x4096_S1024x128_0_896
/-- Column 7 of a [1024, 32] block: the parameters of group 7. -/
abbrev gcol7 : Rect S1024x32 := Rect.unit (s := S1024x32) ![0, 7] S1024x1.size inb_S1024x32_S1024x1_0_7
/-- Columns 1024 to 1151 of a [1024, 4096] block: the slab of group 8. -/
abbrev slab8 : Rect S1024x4096 := Rect.unit (s := S1024x4096) ![0, 1024] S1024x128.size inb_S1024x4096_S1024x128_0_1024
/-- Column 8 of a [1024, 32] block: the parameters of group 8. -/
abbrev gcol8 : Rect S1024x32 := Rect.unit (s := S1024x32) ![0, 8] S1024x1.size inb_S1024x32_S1024x1_0_8
/-- Columns 1152 to 1279 of a [1024, 4096] block: the slab of group 9. -/
abbrev slab9 : Rect S1024x4096 := Rect.unit (s := S1024x4096) ![0, 1152] S1024x128.size inb_S1024x4096_S1024x128_0_1152
/-- Column 9 of a [1024, 32] block: the parameters of group 9. -/
abbrev gcol9 : Rect S1024x32 := Rect.unit (s := S1024x32) ![0, 9] S1024x1.size inb_S1024x32_S1024x1_0_9
/-- Columns 1280 to 1407 of a [1024, 4096] block: the slab of group 10. -/
abbrev slab10 : Rect S1024x4096 := Rect.unit (s := S1024x4096) ![0, 1280] S1024x128.size inb_S1024x4096_S1024x128_0_1280
/-- Column 10 of a [1024, 32] block: the parameters of group 10. -/
abbrev gcol10 : Rect S1024x32 := Rect.unit (s := S1024x32) ![0, 10] S1024x1.size inb_S1024x32_S1024x1_0_10
/-- Columns 1408 to 1535 of a [1024, 4096] block: the slab of group 11. -/
abbrev slab11 : Rect S1024x4096 := Rect.unit (s := S1024x4096) ![0, 1408] S1024x128.size inb_S1024x4096_S1024x128_0_1408
/-- Column 11 of a [1024, 32] block: the parameters of group 11. -/
abbrev gcol11 : Rect S1024x32 := Rect.unit (s := S1024x32) ![0, 11] S1024x1.size inb_S1024x32_S1024x1_0_11
/-- Columns 1536 to 1663 of a [1024, 4096] block: the slab of group 12. -/
abbrev slab12 : Rect S1024x4096 := Rect.unit (s := S1024x4096) ![0, 1536] S1024x128.size inb_S1024x4096_S1024x128_0_1536
/-- Column 12 of a [1024, 32] block: the parameters of group 12. -/
abbrev gcol12 : Rect S1024x32 := Rect.unit (s := S1024x32) ![0, 12] S1024x1.size inb_S1024x32_S1024x1_0_12
/-- Columns 1664 to 1791 of a [1024, 4096] block: the slab of group 13. -/
abbrev slab13 : Rect S1024x4096 := Rect.unit (s := S1024x4096) ![0, 1664] S1024x128.size inb_S1024x4096_S1024x128_0_1664
/-- Column 13 of a [1024, 32] block: the parameters of group 13. -/
abbrev gcol13 : Rect S1024x32 := Rect.unit (s := S1024x32) ![0, 13] S1024x1.size inb_S1024x32_S1024x1_0_13
/-- Columns 1792 to 1919 of a [1024, 4096] block: the slab of group 14. -/
abbrev slab14 : Rect S1024x4096 := Rect.unit (s := S1024x4096) ![0, 1792] S1024x128.size inb_S1024x4096_S1024x128_0_1792
/-- Column 14 of a [1024, 32] block: the parameters of group 14. -/
abbrev gcol14 : Rect S1024x32 := Rect.unit (s := S1024x32) ![0, 14] S1024x1.size inb_S1024x32_S1024x1_0_14
/-- Columns 1920 to 2047 of a [1024, 4096] block: the slab of group 15. -/
abbrev slab15 : Rect S1024x4096 := Rect.unit (s := S1024x4096) ![0, 1920] S1024x128.size inb_S1024x4096_S1024x128_0_1920
/-- Column 15 of a [1024, 32] block: the parameters of group 15. -/
abbrev gcol15 : Rect S1024x32 := Rect.unit (s := S1024x32) ![0, 15] S1024x1.size inb_S1024x32_S1024x1_0_15
/-- Columns 2048 to 2175 of a [1024, 4096] block: the slab of group 16. -/
abbrev slab16 : Rect S1024x4096 := Rect.unit (s := S1024x4096) ![0, 2048] S1024x128.size inb_S1024x4096_S1024x128_0_2048
/-- Column 16 of a [1024, 32] block: the parameters of group 16. -/
abbrev gcol16 : Rect S1024x32 := Rect.unit (s := S1024x32) ![0, 16] S1024x1.size inb_S1024x32_S1024x1_0_16
/-- Columns 2176 to 2303 of a [1024, 4096] block: the slab of group 17. -/
abbrev slab17 : Rect S1024x4096 := Rect.unit (s := S1024x4096) ![0, 2176] S1024x128.size inb_S1024x4096_S1024x128_0_2176
/-- Column 17 of a [1024, 32] block: the parameters of group 17. -/
abbrev gcol17 : Rect S1024x32 := Rect.unit (s := S1024x32) ![0, 17] S1024x1.size inb_S1024x32_S1024x1_0_17
/-- Columns 2304 to 2431 of a [1024, 4096] block: the slab of group 18. -/
abbrev slab18 : Rect S1024x4096 := Rect.unit (s := S1024x4096) ![0, 2304] S1024x128.size inb_S1024x4096_S1024x128_0_2304
/-- Column 18 of a [1024, 32] block: the parameters of group 18. -/
abbrev gcol18 : Rect S1024x32 := Rect.unit (s := S1024x32) ![0, 18] S1024x1.size inb_S1024x32_S1024x1_0_18
/-- Columns 2432 to 2559 of a [1024, 4096] block: the slab of group 19. -/
abbrev slab19 : Rect S1024x4096 := Rect.unit (s := S1024x4096) ![0, 2432] S1024x128.size inb_S1024x4096_S1024x128_0_2432
/-- Column 19 of a [1024, 32] block: the parameters of group 19. -/
abbrev gcol19 : Rect S1024x32 := Rect.unit (s := S1024x32) ![0, 19] S1024x1.size inb_S1024x32_S1024x1_0_19
/-- Columns 2560 to 2687 of a [1024, 4096] block: the slab of group 20. -/
abbrev slab20 : Rect S1024x4096 := Rect.unit (s := S1024x4096) ![0, 2560] S1024x128.size inb_S1024x4096_S1024x128_0_2560
/-- Column 20 of a [1024, 32] block: the parameters of group 20. -/
abbrev gcol20 : Rect S1024x32 := Rect.unit (s := S1024x32) ![0, 20] S1024x1.size inb_S1024x32_S1024x1_0_20
/-- Columns 2688 to 2815 of a [1024, 4096] block: the slab of group 21. -/
abbrev slab21 : Rect S1024x4096 := Rect.unit (s := S1024x4096) ![0, 2688] S1024x128.size inb_S1024x4096_S1024x128_0_2688
/-- Column 21 of a [1024, 32] block: the parameters of group 21. -/
abbrev gcol21 : Rect S1024x32 := Rect.unit (s := S1024x32) ![0, 21] S1024x1.size inb_S1024x32_S1024x1_0_21
/-- Columns 2816 to 2943 of a [1024, 4096] block: the slab of group 22. -/
abbrev slab22 : Rect S1024x4096 := Rect.unit (s := S1024x4096) ![0, 2816] S1024x128.size inb_S1024x4096_S1024x128_0_2816
/-- Column 22 of a [1024, 32] block: the parameters of group 22. -/
abbrev gcol22 : Rect S1024x32 := Rect.unit (s := S1024x32) ![0, 22] S1024x1.size inb_S1024x32_S1024x1_0_22
/-- Columns 2944 to 3071 of a [1024, 4096] block: the slab of group 23. -/
abbrev slab23 : Rect S1024x4096 := Rect.unit (s := S1024x4096) ![0, 2944] S1024x128.size inb_S1024x4096_S1024x128_0_2944
/-- Column 23 of a [1024, 32] block: the parameters of group 23. -/
abbrev gcol23 : Rect S1024x32 := Rect.unit (s := S1024x32) ![0, 23] S1024x1.size inb_S1024x32_S1024x1_0_23
/-- Columns 3072 to 3199 of a [1024, 4096] block: the slab of group 24. -/
abbrev slab24 : Rect S1024x4096 := Rect.unit (s := S1024x4096) ![0, 3072] S1024x128.size inb_S1024x4096_S1024x128_0_3072
/-- Column 24 of a [1024, 32] block: the parameters of group 24. -/
abbrev gcol24 : Rect S1024x32 := Rect.unit (s := S1024x32) ![0, 24] S1024x1.size inb_S1024x32_S1024x1_0_24
/-- Columns 3200 to 3327 of a [1024, 4096] block: the slab of group 25. -/
abbrev slab25 : Rect S1024x4096 := Rect.unit (s := S1024x4096) ![0, 3200] S1024x128.size inb_S1024x4096_S1024x128_0_3200
/-- Column 25 of a [1024, 32] block: the parameters of group 25. -/
abbrev gcol25 : Rect S1024x32 := Rect.unit (s := S1024x32) ![0, 25] S1024x1.size inb_S1024x32_S1024x1_0_25
/-- Columns 3328 to 3455 of a [1024, 4096] block: the slab of group 26. -/
abbrev slab26 : Rect S1024x4096 := Rect.unit (s := S1024x4096) ![0, 3328] S1024x128.size inb_S1024x4096_S1024x128_0_3328
/-- Column 26 of a [1024, 32] block: the parameters of group 26. -/
abbrev gcol26 : Rect S1024x32 := Rect.unit (s := S1024x32) ![0, 26] S1024x1.size inb_S1024x32_S1024x1_0_26
/-- Columns 3456 to 3583 of a [1024, 4096] block: the slab of group 27. -/
abbrev slab27 : Rect S1024x4096 := Rect.unit (s := S1024x4096) ![0, 3456] S1024x128.size inb_S1024x4096_S1024x128_0_3456
/-- Column 27 of a [1024, 32] block: the parameters of group 27. -/
abbrev gcol27 : Rect S1024x32 := Rect.unit (s := S1024x32) ![0, 27] S1024x1.size inb_S1024x32_S1024x1_0_27
/-- Columns 3584 to 3711 of a [1024, 4096] block: the slab of group 28. -/
abbrev slab28 : Rect S1024x4096 := Rect.unit (s := S1024x4096) ![0, 3584] S1024x128.size inb_S1024x4096_S1024x128_0_3584
/-- Column 28 of a [1024, 32] block: the parameters of group 28. -/
abbrev gcol28 : Rect S1024x32 := Rect.unit (s := S1024x32) ![0, 28] S1024x1.size inb_S1024x32_S1024x1_0_28
/-- Columns 3712 to 3839 of a [1024, 4096] block: the slab of group 29. -/
abbrev slab29 : Rect S1024x4096 := Rect.unit (s := S1024x4096) ![0, 3712] S1024x128.size inb_S1024x4096_S1024x128_0_3712
/-- Column 29 of a [1024, 32] block: the parameters of group 29. -/
abbrev gcol29 : Rect S1024x32 := Rect.unit (s := S1024x32) ![0, 29] S1024x1.size inb_S1024x32_S1024x1_0_29
/-- Columns 3840 to 3967 of a [1024, 4096] block: the slab of group 30. -/
abbrev slab30 : Rect S1024x4096 := Rect.unit (s := S1024x4096) ![0, 3840] S1024x128.size inb_S1024x4096_S1024x128_0_3840
/-- Column 30 of a [1024, 32] block: the parameters of group 30. -/
abbrev gcol30 : Rect S1024x32 := Rect.unit (s := S1024x32) ![0, 30] S1024x1.size inb_S1024x32_S1024x1_0_30
/-- Columns 3968 to 4095 of a [1024, 4096] block: the slab of group 31. -/
abbrev slab31 : Rect S1024x4096 := Rect.unit (s := S1024x4096) ![0, 3968] S1024x128.size inb_S1024x4096_S1024x128_0_3968
/-- Column 31 of a [1024, 32] block: the parameters of group 31. -/
abbrev gcol31 : Rect S1024x32 := Rect.unit (s := S1024x32) ![0, 31] S1024x1.size inb_S1024x32_S1024x1_0_31

/-! ## What the body leaves in the output block -/

/-- The output block after the body, from the three input blocks: slab g holds the group-g arithmetic on slab g of
    the codes `x0` and on column g of the scales `x1` and of the offsets `x2`. The slabs are listed last written first. -/
def out0_3 (x0 : Vec F S1024x4096 .i32) (x1 x2 : Vec F S1024x32 .f32) : Vec F S1024x4096 .bf16 :=
  View.canon [⟨slab31, k0_pay1 (k0_pay40 (View.ld x0 slab31)) (View.ld x1 gcol31) (View.ld x2 gcol31)⟩,
    ⟨slab30, k0_pay39 (View.ld x0 slab30) (View.ld x1 gcol30) (View.ld x2 gcol30)⟩,
    ⟨slab29, k0_pay38 (View.ld x0 slab29) (View.ld x1 gcol29) (View.ld x2 gcol29)⟩,
    ⟨slab28, k0_pay37 (k0_pay36 (View.ld x0 slab28)) (View.ld x1 gcol28) (View.ld x2 gcol28)⟩,
    ⟨slab27, k0_pay35 (View.ld x0 slab27) (View.ld x1 gcol27) (View.ld x2 gcol27)⟩,
    ⟨slab26, k0_pay34 (View.ld x0 slab26) (View.ld x1 gcol26) (View.ld x2 gcol26)⟩,
    ⟨slab25, k0_pay33 (k0_pay32 (View.ld x0 slab25)) (View.ld x1 gcol25) (View.ld x2 gcol25)⟩,
    ⟨slab24, k0_pay31 (View.ld x0 slab24) (View.ld x1 gcol24) (View.ld x2 gcol24)⟩,
    ⟨slab23, k0_pay30 (View.ld x0 slab23) (View.ld x1 gcol23) (View.ld x2 gcol23)⟩,
    ⟨slab22, k0_pay29 (View.ld x0 slab22) (View.ld x1 gcol22) (View.ld x2 gcol22)⟩,
    ⟨slab21, k0_pay28 (View.ld x0 slab21) (View.ld x1 gcol21) (View.ld x2 gcol21)⟩,
    ⟨slab20, k0_pay27 (View.ld x0 slab20) (View.ld x1 gcol20) (View.ld x2 gcol20)⟩,
    ⟨slab19, k0_pay26 (View.ld x0 slab19) (View.ld x1 gcol19) (View.ld x2 gcol19)⟩,
    ⟨slab18, k0_pay25 (View.ld x0 slab18) (View.ld x1 gcol18) (View.ld x2 gcol18)⟩,
    ⟨slab17, k0_pay24 (View.ld x0 slab17) (View.ld x1 gcol17) (View.ld x2 gcol17)⟩,
    ⟨slab16, k0_pay23 (View.ld x0 slab16) (View.ld x1 gcol16) (View.ld x2 gcol16)⟩,
    ⟨slab15, k0_pay22 (k0_pay21 (View.ld x0 slab15) (View.ld x1 gcol15) (View.ld x2 gcol15))⟩,
    ⟨slab14, k0_pay20 (View.ld x0 slab14) (View.ld x1 gcol14) (View.ld x2 gcol14)⟩,
    ⟨slab13, k0_pay19 (View.ld x0 slab13) (View.ld x1 gcol13) (View.ld x2 gcol13)⟩,
    ⟨slab12, k0_pay18 (k0_pay16 (View.ld x0 slab12)) (View.ld x2 gcol12) (k0_pay17 (View.ld x1 gcol12))⟩,
    ⟨slab11, k0_pay15 (View.ld x0 slab11) (View.ld x1 gcol11) (View.ld x2 gcol11)⟩,
    ⟨slab10, k0_pay14 (View.ld x0 slab10) (View.ld x1 gcol10) (View.ld x2 gcol10)⟩,
    ⟨slab9, k0_pay13 (k0_pay12 (View.ld x0 slab9)) (View.ld x1 gcol9) (View.ld x2 gcol9)⟩,
    ⟨slab8, k0_pay11 (View.ld x0 slab8) (View.ld x1 gcol8) (View.ld x2 gcol8)⟩,
    ⟨slab7, k0_pay10 (View.ld x0 slab7) (View.ld x1 gcol7) (View.ld x2 gcol7)⟩,
    ⟨slab6, k0_pay9 (k0_pay8 (View.ld x0 slab6)) (View.ld x1 gcol6) (View.ld x2 gcol6)⟩,
    ⟨slab5, k0_pay7 (View.ld x0 slab5) (View.ld x1 gcol5) (View.ld x2 gcol5)⟩,
    ⟨slab4, k0_pay6 (View.ld x0 slab4) (View.ld x1 gcol4) (View.ld x2 gcol4)⟩,
    ⟨slab3, k0_pay5 (View.ld x0 slab3) (View.ld x1 gcol3) (View.ld x2 gcol3)⟩,
    ⟨slab2, k0_pay4 (View.ld x0 slab2) (View.ld x1 gcol2) (View.ld x2 gcol2)⟩,
    ⟨slab1, k0_pay3 (View.ld x0 slab1) (View.ld x1 gcol1) (View.ld x2 gcol1)⟩,
    ⟨slab0, k0_pay2 (View.ld x0 slab0) (View.ld x1 gcol0) (View.ld x2 gcol0)⟩]

/-- The 32 slabs tile the block, so every entry of the block lies in one of them. -/
theorem cover0_3 (p0 p1 p2 p3 p4 p5 p6 p7 p8 p9 p10 p11 p12 p13 p14 p15 p16 p17 p18 p19 p20 p21 p22 p23 p24 p25 p26 p27 p28 p29 p30 p31 : Vec F S1024x128 .bf16) (y : S1024x4096.Idx) :
    ∃ pc ∈ ([⟨slab31, p31⟩, ⟨slab30, p30⟩, ⟨slab29, p29⟩, ⟨slab28, p28⟩, ⟨slab27, p27⟩, ⟨slab26, p26⟩, ⟨slab25, p25⟩, ⟨slab24, p24⟩, ⟨slab23, p23⟩, ⟨slab22, p22⟩, ⟨slab21, p21⟩, ⟨slab20, p20⟩, ⟨slab19, p19⟩, ⟨slab18, p18⟩, ⟨slab17, p17⟩, ⟨slab16, p16⟩, ⟨slab15, p15⟩, ⟨slab14, p14⟩, ⟨slab13, p13⟩, ⟨slab12, p12⟩, ⟨slab11, p11⟩, ⟨slab10, p10⟩, ⟨slab9, p9⟩, ⟨slab8, p8⟩, ⟨slab7, p7⟩, ⟨slab6, p6⟩, ⟨slab5, p5⟩, ⟨slab4, p4⟩, ⟨slab3, p3⟩, ⟨slab2, p2⟩, ⟨slab1, p1⟩, ⟨slab0, p0⟩] : List (View.Piece (Elt F) S1024x4096 .bf16)), y ∈ pc.1.set :=
  View.cover_of_tiledL [⟨slab31, p31⟩, ⟨slab30, p30⟩, ⟨slab29, p29⟩, ⟨slab28, p28⟩, ⟨slab27, p27⟩, ⟨slab26, p26⟩, ⟨slab25, p25⟩, ⟨slab24, p24⟩, ⟨slab23, p23⟩, ⟨slab22, p22⟩, ⟨slab21, p21⟩, ⟨slab20, p20⟩, ⟨slab19, p19⟩, ⟨slab18, p18⟩, ⟨slab17, p17⟩, ⟨slab16, p16⟩, ⟨slab15, p15⟩, ⟨slab14, p14⟩, ⟨slab13, p13⟩, ⟨slab12, p12⟩, ⟨slab11, p11⟩, ⟨slab10, p10⟩, ⟨slab9, p9⟩, ⟨slab8, p8⟩, ⟨slab7, p7⟩, ⟨slab6, p6⟩, ⟨slab5, p5⟩, ⟨slab4, p4⟩, ⟨slab3, p3⟩, ⟨slab2, p2⟩, ⟨slab1, p1⟩, ⟨slab0, p0⟩] S1024x128.size (by sl_kernel_rfl) y

/-! ## The body's run -/

set_option maxHeartbeats 4000000 in
/-- From the three input buffers held at contents reading `x0`, `x1`, `x2` and the output buffer held at anything,
    the body runs to its return with the inputs as they were and the output reading `out0_3 x0 x1 x2`: group after
    group it reads its slab of codes and its two columns and overwrites its slab of the output; the value it reads
    from the output slab beforehand is never used. -/
theorem sound_kernel0 (c : Dev nD) (E : Set ℕ) (i : grid0.Coords)
    (arg0 : Memref sig .tc .vmem S1024x4096 .i32) (harg0 : arg0.IsWhole) (arg1 : Memref sig .tc .vmem S1024x32 .f32) (harg1 : arg1.IsWhole)
    (arg2 : Memref sig .tc .vmem S1024x32 .f32) (harg2 : arg2.IsWhole) (arg3 : Memref sig .tc .vmem S1024x4096 .bf16) (harg3 : arg3.IsWhole)
    (x0 : Vec F S1024x4096 .i32) (x1 x2 : Vec F S1024x32 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__dequant_kernel i arg0 harg0 arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _ _ _ _ _ _ _ _ _ _ _ _ _ _ _ _ _ _ _ _ _ _ _ _ _ _ _ _ _ _)

/-! ## The region's proof data -/

/-- The proof data of the region on core `c`: the arrays as the region finds them; after the body at point `t` each
    input buffer holds its block and the output buffer holds `out0_3` of the three input blocks; the rest of the
    core's state is untouched, nothing is owed, the shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current buffer holds its block at every point. -/
theorem before0_0 (c : Dev nD) (t : Fin cfg0.N) (d) : (dat0 V c).before 0 t d = iblk0 V c 0 t :=
  held0_0_of V (dat0 V c) (A_eq0 V c 0) (after0_0 V c) t d
theorem before0_1 (c : Dev nD) (t : Fin cfg0.N) (d) : (dat0 V c).before 1 t d = iblk0 V c 1 t :=
  held0_1_of V (dat0 V c) (A_eq0 V c 1) (after0_1 V c) t d
theorem before0_2 (c : Dev nD) (t : Fin cfg0.N) (d) : (dat0 V c).before 2 t d = iblk0 V c 2 t :=
  held0_2_of V (dat0 V c) (A_eq0 V c 2) (after0_2 V c) t d

/-! ## The body obligation at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the run above applies; the rest of the state
    passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Deq

end
-- ==== Proof.MatRuns.lean ====
/-
  The matrix-product kernel's body, run once per control case.

  The kernel walks a grid of 4 x 4 x 4 points; the last coordinate k walks the four blocks of 1024 columns that a
  block of the product sums over. Its body keeps a running sum in a scratch buffer: at k = 0 it first stores zeros
  there; at every k it adds the product of the current block of rows of the left matrix with the current block of
  rows of the right one to what the scratch holds; at k = 3 it copies the scratch into the output block. So a point
  is in one of three cases: the first block (zero, then add), a middle block (add), the last block (add, then copy out).
  For each case the body is run on arbitrary whole staging buffers; what each buffer is left with is a list of
  stored pieces that the run itself determines.
-/
import proofs.«132169_j81449759801528_2_alg».proof.Proof.Gen.KernelIdeal.Launch
import proofs.«132169_j81449759801528_2_alg».proof.Proof.Gen.KernelIdeal.Skeleton
import proofs.«132169_j81449759801528_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The body's first test: this is the first block of the sum (k = 0). -/
abbrev cond1_0 (i : grid1.Coords) : Prop := (Scalar.cmpi .ne (Scalar.extui (Scalar.cmpi .eq (BitVec.ofNat 32 (i 2).val) 0#32)) 0#32) = 1#1
/-- The points run with k fastest, so it holds at the points divisible by 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second test: this is the last block of the sum (k = 3). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle: everywhere but at the last block, where it is stored and written back -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The buffers the body is called on -/

/-- One staging buffer of the output window, as a view through which its contents are stated. -/
abbrev VO1_2 : View sig .tc .vmem S2048x1024 .f32 := (Memref.whole cc1_stg2_0 : Memref sig .tc .vmem S2048x1024 .f32).view
/-- Each window's current staging buffer at point t. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .f32 := win1_2.stage (cfg1.slots t 2)
abbrev hs1_2 (t : Fin cfg1.N) : (ms1_2 t).IsWhole := hstage1_2 ((cfg1.slots t 2).cast nbuf1_2)
/-- The running sum's scratch buffer, and the view through which its contents are stated. -/
abbrev scM1_0 : Memref sig .tc .vmem S2048x1024 .f32 := Memref.whole cc1_scratch0
abbrev VS1_0 : View sig .tc .vmem S2048x1024 .f32 := scM1_0.view

/-! ## The body in each case -/

set_option maxHeartbeats 1000000 in
/-- FIRST BLOCK (k = 0, not the last): on whole buffers, the two inputs at x0 and x1, the output at contents it hands back
    untouched, the scratch at anything, the body runs and leaves the scratch with the found pieces written. -/
noncomputable def kernelRun1_A (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .f32) (x1 : Vec F S1024x1024 .bf16) :
    { LS0 : List (View.Piece (Elt F) S2048x1024 .f32) //
      ∀ (xi2 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A MIDDLE BLOCK (neither first nor last): the scratch comes in at the running sum xs0 the point before left. -/
noncomputable def kernelRun1_B (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .f32) (x1 : Vec F S1024x1024 .bf16) (xs0 : Vec F S2048x1024 .f32) :
    { LS0 : List (View.Piece (Elt F) S2048x1024 .f32) //
      ∀ (xi2 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- THE LAST BLOCK (k = 3): the scratch comes in at the running sum xs0, the output at anything; both end with found pieces written. -/
noncomputable def kernelRun1_C (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .f32) (x1 : Vec F S1024x1024 .bf16) (xs0 : Vec F S2048x1024 .f32) :
    Σ' (L2 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Mat

end
-- ==== Proof.MatFrame.lean ====
/-
  The matrix-product kernel as a pipeline region: what its scratch and its output hold after every grid point.

  The region is entered with the machine's buffers at contents V. Point t of the 4 x 4 x 4 grid (k fastest) reads
  block (i, k) of the left matrix and block (j, k) of the right one. The scratch after point t is, by recursion on t:
  at a first block (t divisible by 4) what the first-block case leaves from the two input blocks; otherwise what the
  middle- or last-block case leaves from the two input blocks and the scratch after point t - 1. The output's staging
  buffer is stored only at a last block (t = 3 mod 4), where it receives the scratch; elsewhere it is idle, neither
  stored nor written back. The invariant carried from point to point holds the scratch at exactly that running
  sum (before the first point: at anything), the other kernel's staging buffers and the generator register untouched.
-/
import proofs.«132169_j81449759801528_2_alg».proof.Proof.MatRuns

set_option maxRecDepth 16384

noncomputable section

namespace Cert.KernelIdeal.Mat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its pieces read back -/

/-- The first-block case's pieces cover the scratch. -/
theorem scover1_A (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .f32) (x1 : Vec F S1024x1024 .bf16) (y : S2048x1024.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S2048x1024.size (by sl_kernel_rfl) y
/-- What the first-block case leaves in the scratch. -/
def sout1_A (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .f32) (x1 : Vec F S1024x1024 .bf16) : Vec F S2048x1024 .f32 :=
  VS1_0.read (Elt F) (VS1_0.writes (Elt F) VS1_0.junk (kernelRun1_A c i arg3 harg3 arg4 harg4 arg5 harg5 arg6 harg6 hc0 hc1 x0 x1).1)

theorem scover1_B (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .f32) (x1 : Vec F S1024x1024 .bf16) (xs0 : Vec F S2048x1024 .f32) (y : S2048x1024.Idx) :
    ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S2048x1024.size (by sl_kernel_rfl) y
/-- What a middle-block case leaves in the scratch. -/
def sout1_B (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .f32) (x1 : Vec F S1024x1024 .bf16) (xs0 : Vec F S2048x1024 .f32) : Vec F S2048x1024 .f32 :=
  VS1_0.read (Elt F) (VS1_0.writes (Elt F) VS1_0.junk (kernelRun1_B c i arg3 harg3 arg4 harg4 arg5 harg5 arg6 harg6 hc0 hc1 x0 x1 xs0).1)

theorem cover1_C (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .f32) (x1 : Vec F S1024x1024 .bf16) (xs0 : Vec F S2048x1024 .f32) (y : S2048x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S2048x1024.size (by sl_kernel_rfl) y
/-- What the last-block case leaves in the output's staging buffer. -/
def out1_C (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .f32) (x1 : Vec F S1024x1024 .bf16) (xs0 : Vec F S2048x1024 .f32) : Vec F S2048x1024 .f32 :=
  VO1_2.read (Elt F) (VO1_2.writes (Elt F) VO1_2.junk (kernelRun1_C c i arg3 harg3 arg4 harg4 arg5 harg5 arg6 harg6 hc0 hc1 x0 x1 xs0).1)
theorem scover1_C (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .f32) (x1 : Vec F S1024x1024 .bf16) (xs0 : Vec F S2048x1024 .f32) (y : S2048x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S2048x1024.size (by sl_kernel_rfl) y
/-- What the last-block case leaves in the scratch. -/
def sout1_C (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .f32) (x1 : Vec F S1024x1024 .bf16) (xs0 : Vec F S2048x1024 .f32) : Vec F S2048x1024 .f32 :=
  VS1_0.read (Elt F) (VS1_0.writes (Elt F) VS1_0.junk (kernelRun1_C c i arg3 harg3 arg4 harg4 arg5 harg5 arg6 harg6 hc0 hc1 x0 x1 xs0).2.1)

/-- The output's staging buffer where the body stores nothing into it: a value nothing reads (the window is neither
    written back nor read there). -/
def idleOut : Vec F S2048x1024 .f32 := VO1_2.read (Elt F) VO1_2.junk

/-! ## The accumulation, point by point -/

/-- What the output's staging buffer (first component) and the scratch (second) hold after the body at position n. -/
def outsAt1 (c : Dev nD) : (n : ℕ) → n < cfg1.N → Vec F S2048x1024 .f32 × Vec F S2048x1024 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first block. -/
theorem outsAt1_A (c : Dev nD) (t : Fin cfg1.N) (h0 : t.val % 4 = 0) (h1 : ¬t.val % 4 = 3) :
    outsAt1 V c t.val t.isLt = (idleOut, sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

/-- At a middle block: over what the point before left. -/
theorem outsAt1_B (c : Dev nD) (t : Fin cfg1.N) (h0 : ¬t.val % 4 = 0) (h1 : ¬t.val % 4 = 3) :
    outsAt1 V c t.val t.isLt = (idleOut, sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block: over what the point before left. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried between points -/

/-- The other kernel's eight staging buffers, each whole at some contents: scoped buffers this kernel never touches. -/
def others1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class's invariant with the scratch split off as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- Before position n: before the first point the class's invariant (the scratch at anything); afterwards the scratch at what
    the point before left, the other buffers and the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The arrays as the region finds them; after the body at point t the two inputs' buffers at their blocks and the
    output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t: the invariant, nothing owed, each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the position modulo 4 says which case the point is in; the
    invariant hands the body the scratch at the running sum so far (at anything at the very first point) and takes it back at
    this point's; at a last block the output's buffer ends at what the case stores, elsewhere it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 4 = 3
  · have h0 : ¬t.val % 4 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold out1_C sout1_C; (try dsimp only)
    rw [PhiS_castSucc V c t, PhiS_pos V c _ _ hz]
    iintro ⟨⟨⟨Ho0, Ho1, Ho2, Ho3, Ho4, Ho5, Ho6, Ho7, HS0⟩, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Ho0 Ho1 Ho2 Ho3 Ho4 Ho5 Ho6 Ho7 HS0 Hg]
    · isplitl [Ho0 Ho1 Ho2 Ho3 Ho4 Ho5 Ho6 Ho7 HS0]
      ·
        isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        isplitl [Ho7]; · iexact Ho7
        unfold owns; iexists _; isplitr
        swap; · iexact HS0
        ipureintro; exact View.read_writes_of_cover _ _ _ _ _ (scover1_C c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C c _ _ _ _ _ _ _ _ _ _ _ _ _ _)
  · have hnc : ¬cond1_1 (grid1.coords t) := fun h => h1 ((hcond1_1 t).mp h)
    rw [Dat.leavesExact_idle (dat1 V c) 2 t (idleAt1_2 t hnc) (noFlush1_2 t hnc)]
    by_cases h0 : t.val % 4 = 0
    · rw [outsAt1_A V c t h0 h1]
      unfold sout1_A; (try dsimp only)
      by_cases hz : t.val = 0
      · rw [PhiS_castSucc V c t, PhiS_zero V c _ _ hz, PhiA1_eq]
        iintro ⟨⟨⟨Ho0, Ho1, Ho2, Ho3, Ho4, Ho5, Ho6, Ho7, HS0⟩, Hg⟩, Ho, ⟨%d0, H0⟩, ⟨%d1, H1⟩, ⟨%d2, H2⟩⟩
        iapply ((kernelRun1_A c (grid1.coords t) _ _ _ _ _ _ _ _ ((hcond1_0 t).mpr h0) hnc (iblk1 V c 0 t) (iblk1 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ho0 Ho1 Ho2 Ho3 Ho4 Ho5 Ho6 Ho7 HS0 Hg]
        · isplitl [Ho0 Ho1 Ho2 Ho3 Ho4 Ho5 Ho6 Ho7 HS0]
          ·
            isplitl [Ho0]; · iexact Ho0
            isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            unfold owns; iexists _; isplitr
            swap; · iexact HS0
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨⟨Ho0, Ho1, Ho2, Ho3, Ho4, Ho5, Ho6, Ho7, HS0⟩, Hg⟩, Ho, ⟨%d0, H0⟩, ⟨%d1, H1⟩, ⟨%d2, H2⟩⟩
        iapply ((kernelRun1_A c (grid1.coords t) _ _ _ _ _ _ _ _ ((hcond1_0 t).mpr h0) hnc (iblk1 V c 0 t) (iblk1 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Ho0 Ho1 Ho2 Ho3 Ho4 Ho5 Ho6 Ho7 HS0 Hg]
        · isplitl [Ho0 Ho1 Ho2 Ho3 Ho4 Ho5 Ho6 Ho7 HS0]
          ·
            isplitl [Ho0]; · iexact Ho0
            isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            unfold owns; iexists _; isplitr
            swap; · iexact HS0
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
    · have hz : t.val ≠ 0 := fun h => h0 (by rw [h])
      rw [outsAt1_B V c t h0 h1]
      unfold sout1_B; (try dsimp only)
      rw [PhiS_castSucc V c t, PhiS_pos V c _ _ hz]
      iintro ⟨⟨⟨Ho0, Ho1, Ho2, Ho3, Ho4, Ho5, Ho6, Ho7, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) hnc (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ho0 Ho1 Ho2 Ho3 Ho4 Ho5 Ho6 Ho7 HS0 Hg]
      · isplitl [Ho0 Ho1 Ho2 Ho3 Ho4 Ho5 Ho6 Ho7 HS0]
        ·
          isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ho0, Ho1, Ho2, Ho3, Ho4, Ho5, Ho6, Ho7, HS0⟩, Hg⟩
  isplitl [Ho0 Ho1 Ho2 Ho3 Ho4 Ho5 Ho6 Ho7 HS0]
  ·
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Mat

end
-- ==== Proof.KRun.lean ====
/-
  The whole program's run: a reshape of the activations to a matrix, the dequantization region, the matrix-product
  region, a reshape of the product back to the activations' shape.

  The machine's unscoped buffers are followed from boundary to boundary: as launched; after the first reshape; after the
  dequantization region, whose arrays end at what its write-backs leave and every other buffer as it was; after the
  matrix-product region likewise; after the last reshape. Each region is entered from every unscoped buffer held at the
  boundary's contents beside the generator register and an empty debt, and left the same way. The conclusion: every
  weakly fair execution terminates without a fault, and in the final state every unscoped buffer holds the last boundary's
  contents. The arguments are written by nothing, so they end as launched.
-/
import proofs.«132169_j81449759801528_2_alg».proof.Proof.DeqFrame
import proofs.«132169_j81449759801528_2_alg».proof.Proof.MatFrame
import proofs.«132169_j81449759801528_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first reshape: the dequantization region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the dequantization region: its arrays at what its write-backs leave, every other buffer as entered. -/
def W2 (c : Dev nD) : Valuation τ sig (Elt F) :=
  Pipeline.withArrays spec0 c (W1 m ρ c) fun w => (Deq.dat0 (V1 m ρ) c).arrAt w cfg0.N
theorem W2_arr (c : Dev nD) (w : Fin cfg0.W) :
    W2 m ρ c (Proc.devRef .tc (Pipeline.arrRef spec0 w)) = (Deq.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Deq.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the matrix-product region. -/
def W3 (c : Dev nD) : Valuation τ sig (Elt F) :=
  Pipeline.withArrays spec1 c (W2 m ρ c) fun w => (Mat.dat1 (V2 m ρ) c).arrAt w cfg1.N
theorem W3_arr (c : Dev nD) (w : Fin cfg1.W) :
    W3 m ρ c (Proc.devRef .tc (Pipeline.arrRef spec1 w)) = (Mat.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Mat.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg1) := W3_of_ne m ρ c main_arg1 (by decide)
    _ = W1 m ρ c (Proc.devRef .tc main_arg1) := (W2_arr m ρ c 0).trans (((Deq.dat0 (V1 m ρ) c).arrAt_in 0 rfl _).trans (Deq.A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg2) := W3_of_ne m ρ c main_arg2 (by decide)
    _ = W1 m ρ c (Proc.devRef .tc main_arg2) := (W2_arr m ρ c 1).trans (((Deq.dat0 (V1 m ρ) c).arrAt_in 1 rfl _).trans (Deq.A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg3) := W3_of_ne m ρ c main_arg3 (by decide)
    _ = W1 m ρ c (Proc.devRef .tc main_arg3) := (W2_arr m ρ c 2).trans (((Deq.dat0 (V1 m ρ) c).arrAt_in 2 rfl _).trans (Deq.A_eq0 (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => Deq.dat0 (V1 m ρ) c
  | ⟨1, _⟩ => fun c => Mat.dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and an empty debt. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The dequantization region: its arrays split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Deq.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: likewise, its invariant entered from the class's and left to it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Mat.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Mat.hin1 (V2 m ρ) c)
    unfold Pipeline.ΦA
    iintro ⟨Hp, -, Hr⟩
    isplitl [Hr]; · iexact Hr
    iexact Hp
  hout c := by
    rw [Pipeline.ownSems0_none]
    refine (Mat.hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Run

end
-- ==== Proof.DeqFrameB.lean ====
/-
  The dequantization pass as one pipelined region, for any float semantics.

  A point of the grid handles 1024 rows of the weight: it finds a block of integer codes [1024, 4096] and the
  blocks [1024, 32] of the per-group scales and offsets, and fills a block [1024, 4096] of the dequantized
  weight in 32 vertical slabs of 128 columns. Slab g is computed from the slab g of the codes and from column g
  of the scales and of the offsets: code * scale - offset, rounded to the narrower format. The 32 slabs tile the
  block, so what the point leaves in the output block is a function of the three input blocks alone: the slabs'
  contents laid side by side (`out0_3`). The proof data of the region say exactly that, and the body obligation is
  the run of the 32 groups one after the other from the three input blocks held unchanged.
-/
import proofs.«132169_j81449759801528_2_alg».proof.Proof.Gen.Kernel.Launch
import proofs.«132169_j81449759801528_2_alg».proof.Proof.Gen.Kernel.Skeleton
import proofs.«132169_j81449759801528_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Deq

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The blocks the windows hold -/

/-- The block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the block was moved in there or was
    already there: for any proof data over the arrays `V` whose body leaves the block in place. Window 0. -/
theorem held0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current buffer holds its block at every point, whether the block was moved in there or was
    already there: for any proof data over the arrays `V` whose body leaves the block in place. Window 1. -/
theorem held0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current buffer holds its block at every point, whether the block was moved in there or was
    already there: for any proof data over the arrays `V` whose body leaves the block in place. Window 2. -/
theorem held0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

/-- Columns 0 to 127 of a [1024, 4096] block: the slab of group 0. -/
abbrev slab0 : Rect S1024x4096 := Rect.unit (s := S1024x4096) ![0, 0] S1024x128.size inb_S1024x4096_S1024x128_0_0
/-- Column 0 of a [1024, 32] block: the parameters of group 0. -/
abbrev gcol0 : Rect S1024x32 := Rect.unit (s := S1024x32) ![0, 0] S1024x1.size inb_S1024x32_S1024x1_0_0
/-- Columns 128 to 255 of a [1024, 4096] block: the slab of group 1. -/
abbrev slab1 : Rect S1024x4096 := Rect.unit (s := S1024x4096) ![0, 128] S1024x128.size inb_S1024x4096_S1024x128_0_128
/-- Column 1 of a [1024, 32] block: the parameters of group 1. -/
abbrev gcol1 : Rect S1024x32 := Rect.unit (s := S1024x32) ![0, 1] S1024x1.size inb_S1024x32_S1024x1_0_1
/-- Columns 256 to 383 of a [1024, 4096] block: the slab of group 2. -/
abbrev slab2 : Rect S1024x4096 := Rect.unit (s := S1024x4096) ![0, 256] S1024x128.size inb_S1024x4096_S1024x128_0_256
/-- Column 2 of a [1024, 32] block: the parameters of group 2. -/
abbrev gcol2 : Rect S1024x32 := Rect.unit (s := S1024x32) ![0, 2] S1024x1.size inb_S1024x32_S1024x1_0_2
/-- Columns 384 to 511 of a [1024, 4096] block: the slab of group 3. -/
abbrev slab3 : Rect S1024x4096 := Rect.unit (s := S1024x4096) ![0, 384] S1024x128.size inb_S1024x4096_S1024x128_0_384
/-- Column 3 of a [1024, 32] block: the parameters of group 3. -/
abbrev gcol3 : Rect S1024x32 := Rect.unit (s := S1024x32) ![0, 3] S1024x1.size inb_S1024x32_S1024x1_0_3
/-- Columns 512 to 639 of a [1024, 4096] block: the slab of group 4. -/
abbrev slab4 : Rect S1024x4096 := Rect.unit (s := S1024x4096) ![0, 512] S1024x128.size inb_S1024x4096_S1024x128_0_512
/-- Column 4 of a [1024, 32] block: the parameters of group 4. -/
abbrev gcol4 : Rect S1024x32 := Rect.unit (s := S1024x32) ![0, 4] S1024x1.size inb_S1024x32_S1024x1_0_4
/-- Columns 640 to 767 of a [1024, 4096] block: the slab of group 5. -/
abbrev slab5 : Rect S1024x4096 := Rect.unit (s := S1024x4096) ![0, 640] S1024x128.size inb_S1024x4096_S1024x128_0_640
/-- Column 5 of a [1024, 32] block: the parameters of group 5. -/
abbrev gcol5 : Rect S1024x32 := Rect.unit (s := S1024x32) ![0, 5] S1024x1.size inb_S1024x32_S1024x1_0_5
/-- Columns 768 to 895 of a [1024, 4096] block: the slab of group 6. -/
abbrev slab6 : Rect S1024x4096 := Rect.unit (s := S1024x4096) ![0, 768] S1024x128.size inb_S1024x4096_S1024x128_0_768
/-- Column 6 of a [1024, 32] block: the parameters of group 6. -/
abbrev gcol6 : Rect S1024x32 := Rect.unit (s := S1024x32) ![0, 6] S1024x1.size inb_S1024x32_S1024x1_0_6
/-- Columns 896 to 1023 of a [1024, 4096] block: the slab of group 7. -/
abbrev slab7 : Rect S1024x4096 := Rect.unit (s := S1024x4096) ![0, 896] S1024x128.size inb_S1024x4096_S1024x128_0_896
/-- Column 7 of a [1024, 32] block: the parameters of group 7. -/
abbrev gcol7 : Rect S1024x32 := Rect.unit (s := S1024x32) ![0, 7] S1024x1.size inb_S1024x32_S1024x1_0_7
/-- Columns 1024 to 1151 of a [1024, 4096] block: the slab of group 8. -/
abbrev slab8 : Rect S1024x4096 := Rect.unit (s := S1024x4096) ![0, 1024] S1024x128.size inb_S1024x4096_S1024x128_0_1024
/-- Column 8 of a [1024, 32] block: the parameters of group 8. -/
abbrev gcol8 : Rect S1024x32 := Rect.unit (s := S1024x32) ![0, 8] S1024x1.size inb_S1024x32_S1024x1_0_8
/-- Columns 1152 to 1279 of a [1024, 4096] block: the slab of group 9. -/
abbrev slab9 : Rect S1024x4096 := Rect.unit (s := S1024x4096) ![0, 1152] S1024x128.size inb_S1024x4096_S1024x128_0_1152
/-- Column 9 of a [1024, 32] block: the parameters of group 9. -/
abbrev gcol9 : Rect S1024x32 := Rect.unit (s := S1024x32) ![0, 9] S1024x1.size inb_S1024x32_S1024x1_0_9
/-- Columns 1280 to 1407 of a [1024, 4096] block: the slab of group 10. -/
abbrev slab10 : Rect S1024x4096 := Rect.unit (s := S1024x4096) ![0, 1280] S1024x128.size inb_S1024x4096_S1024x128_0_1280
/-- Column 10 of a [1024, 32] block: the parameters of group 10. -/
abbrev gcol10 : Rect S1024x32 := Rect.unit (s := S1024x32) ![0, 10] S1024x1.size inb_S1024x32_S1024x1_0_10
/-- Columns 1408 to 1535 of a [1024, 4096] block: the slab of group 11. -/
abbrev slab11 : Rect S1024x4096 := Rect.unit (s := S1024x4096) ![0, 1408] S1024x128.size inb_S1024x4096_S1024x128_0_1408
/-- Column 11 of a [1024, 32] block: the parameters of group 11. -/
abbrev gcol11 : Rect S1024x32 := Rect.unit (s := S1024x32) ![0, 11] S1024x1.size inb_S1024x32_S1024x1_0_11
/-- Columns 1536 to 1663 of a [1024, 4096] block: the slab of group 12. -/
abbrev slab12 : Rect S1024x4096 := Rect.unit (s := S1024x4096) ![0, 1536] S1024x128.size inb_S1024x4096_S1024x128_0_1536
/-- Column 12 of a [1024, 32] block: the parameters of group 12. -/
abbrev gcol12 : Rect S1024x32 := Rect.unit (s := S1024x32) ![0, 12] S1024x1.size inb_S1024x32_S1024x1_0_12
/-- Columns 1664 to 1791 of a [1024, 4096] block: the slab of group 13. -/
abbrev slab13 : Rect S1024x4096 := Rect.unit (s := S1024x4096) ![0, 1664] S1024x128.size inb_S1024x4096_S1024x128_0_1664
/-- Column 13 of a [1024, 32] block: the parameters of group 13. -/
abbrev gcol13 : Rect S1024x32 := Rect.unit (s := S1024x32) ![0, 13] S1024x1.size inb_S1024x32_S1024x1_0_13
/-- Columns 1792 to 1919 of a [1024, 4096] block: the slab of group 14. -/
abbrev slab14 : Rect S1024x4096 := Rect.unit (s := S1024x4096) ![0, 1792] S1024x128.size inb_S1024x4096_S1024x128_0_1792
/-- Column 14 of a [1024, 32] block: the parameters of group 14. -/
abbrev gcol14 : Rect S1024x32 := Rect.unit (s := S1024x32) ![0, 14] S1024x1.size inb_S1024x32_S1024x1_0_14
/-- Columns 1920 to 2047 of a [1024, 4096] block: the slab of group 15. -/
abbrev slab15 : Rect S1024x4096 := Rect.unit (s := S1024x4096) ![0, 1920] S1024x128.size inb_S1024x4096_S1024x128_0_1920
/-- Column 15 of a [1024, 32] block: the parameters of group 15. -/
abbrev gcol15 : Rect S1024x32 := Rect.unit (s := S1024x32) ![0, 15] S1024x1.size inb_S1024x32_S1024x1_0_15
/-- Columns 2048 to 2175 of a [1024, 4096] block: the slab of group 16. -/
abbrev slab16 : Rect S1024x4096 := Rect.unit (s := S1024x4096) ![0, 2048] S1024x128.size inb_S1024x4096_S1024x128_0_2048
/-- Column 16 of a [1024, 32] block: the parameters of group 16. -/
abbrev gcol16 : Rect S1024x32 := Rect.unit (s := S1024x32) ![0, 16] S1024x1.size inb_S1024x32_S1024x1_0_16
/-- Columns 2176 to 2303 of a [1024, 4096] block: the slab of group 17. -/
abbrev slab17 : Rect S1024x4096 := Rect.unit (s := S1024x4096) ![0, 2176] S1024x128.size inb_S1024x4096_S1024x128_0_2176
/-- Column 17 of a [1024, 32] block: the parameters of group 17. -/
abbrev gcol17 : Rect S1024x32 := Rect.unit (s := S1024x32) ![0, 17] S1024x1.size inb_S1024x32_S1024x1_0_17
/-- Columns 2304 to 2431 of a [1024, 4096] block: the slab of group 18. -/
abbrev slab18 : Rect S1024x4096 := Rect.unit (s := S1024x4096) ![0, 2304] S1024x128.size inb_S1024x4096_S1024x128_0_2304
/-- Column 18 of a [1024, 32] block: the parameters of group 18. -/
abbrev gcol18 : Rect S1024x32 := Rect.unit (s := S1024x32) ![0, 18] S1024x1.size inb_S1024x32_S1024x1_0_18
/-- Columns 2432 to 2559 of a [1024, 4096] block: the slab of group 19. -/
abbrev slab19 : Rect S1024x4096 := Rect.unit (s := S1024x4096) ![0, 2432] S1024x128.size inb_S1024x4096_S1024x128_0_2432
/-- Column 19 of a [1024, 32] block: the parameters of group 19. -/
abbrev gcol19 : Rect S1024x32 := Rect.unit (s := S1024x32) ![0, 19] S1024x1.size inb_S1024x32_S1024x1_0_19
/-- Columns 2560 to 2687 of a [1024, 4096] block: the slab of group 20. -/
abbrev slab20 : Rect S1024x4096 := Rect.unit (s := S1024x4096) ![0, 2560] S1024x128.size inb_S1024x4096_S1024x128_0_2560
/-- Column 20 of a [1024, 32] block: the parameters of group 20. -/
abbrev gcol20 : Rect S1024x32 := Rect.unit (s := S1024x32) ![0, 20] S1024x1.size inb_S1024x32_S1024x1_0_20
/-- Columns 2688 to 2815 of a [1024, 4096] block: the slab of group 21. -/
abbrev slab21 : Rect S1024x4096 := Rect.unit (s := S1024x4096) ![0, 2688] S1024x128.size inb_S1024x4096_S1024x128_0_2688
/-- Column 21 of a [1024, 32] block: the parameters of group 21. -/
abbrev gcol21 : Rect S1024x32 := Rect.unit (s := S1024x32) ![0, 21] S1024x1.size inb_S1024x32_S1024x1_0_21
/-- Columns 2816 to 2943 of a [1024, 4096] block: the slab of group 22. -/
abbrev slab22 : Rect S1024x4096 := Rect.unit (s := S1024x4096) ![0, 2816] S1024x128.size inb_S1024x4096_S1024x128_0_2816
/-- Column 22 of a [1024, 32] block: the parameters of group 22. -/
abbrev gcol22 : Rect S1024x32 := Rect.unit (s := S1024x32) ![0, 22] S1024x1.size inb_S1024x32_S1024x1_0_22
/-- Columns 2944 to 3071 of a [1024, 4096] block: the slab of group 23. -/
abbrev slab23 : Rect S1024x4096 := Rect.unit (s := S1024x4096) ![0, 2944] S1024x128.size inb_S1024x4096_S1024x128_0_2944
/-- Column 23 of a [1024, 32] block: the parameters of group 23. -/
abbrev gcol23 : Rect S1024x32 := Rect.unit (s := S1024x32) ![0, 23] S1024x1.size inb_S1024x32_S1024x1_0_23
/-- Columns 3072 to 3199 of a [1024, 4096] block: the slab of group 24. -/
abbrev slab24 : Rect S1024x4096 := Rect.unit (s := S1024x4096) ![0, 3072] S1024x128.size inb_S1024x4096_S1024x128_0_3072
/-- Column 24 of a [1024, 32] block: the parameters of group 24. -/
abbrev gcol24 : Rect S1024x32 := Rect.unit (s := S1024x32) ![0, 24] S1024x1.size inb_S1024x32_S1024x1_0_24
/-- Columns 3200 to 3327 of a [1024, 4096] block: the slab of group 25. -/
abbrev slab25 : Rect S1024x4096 := Rect.unit (s := S1024x4096) ![0, 3200] S1024x128.size inb_S1024x4096_S1024x128_0_3200
/-- Column 25 of a [1024, 32] block: the parameters of group 25. -/
abbrev gcol25 : Rect S1024x32 := Rect.unit (s := S1024x32) ![0, 25] S1024x1.size inb_S1024x32_S1024x1_0_25
/-- Columns 3328 to 3455 of a [1024, 4096] block: the slab of group 26. -/
abbrev slab26 : Rect S1024x4096 := Rect.unit (s := S1024x4096) ![0, 3328] S1024x128.size inb_S1024x4096_S1024x128_0_3328
/-- Column 26 of a [1024, 32] block: the parameters of group 26. -/
abbrev gcol26 : Rect S1024x32 := Rect.unit (s := S1024x32) ![0, 26] S1024x1.size inb_S1024x32_S1024x1_0_26
/-- Columns 3456 to 3583 of a [1024, 4096] block: the slab of group 27. -/
abbrev slab27 : Rect S1024x4096 := Rect.unit (s := S1024x4096) ![0, 3456] S1024x128.size inb_S1024x4096_S1024x128_0_3456
/-- Column 27 of a [1024, 32] block: the parameters of group 27. -/
abbrev gcol27 : Rect S1024x32 := Rect.unit (s := S1024x32) ![0, 27] S1024x1.size inb_S1024x32_S1024x1_0_27
/-- Columns 3584 to 3711 of a [1024, 4096] block: the slab of group 28. -/
abbrev slab28 : Rect S1024x4096 := Rect.unit (s := S1024x4096) ![0, 3584] S1024x128.size inb_S1024x4096_S1024x128_0_3584
/-- Column 28 of a [1024, 32] block: the parameters of group 28. -/
abbrev gcol28 : Rect S1024x32 := Rect.unit (s := S1024x32) ![0, 28] S1024x1.size inb_S1024x32_S1024x1_0_28
/-- Columns 3712 to 3839 of a [1024, 4096] block: the slab of group 29. -/
abbrev slab29 : Rect S1024x4096 := Rect.unit (s := S1024x4096) ![0, 3712] S1024x128.size inb_S1024x4096_S1024x128_0_3712
/-- Column 29 of a [1024, 32] block: the parameters of group 29. -/
abbrev gcol29 : Rect S1024x32 := Rect.unit (s := S1024x32) ![0, 29] S1024x1.size inb_S1024x32_S1024x1_0_29
/-- Columns 3840 to 3967 of a [1024, 4096] block: the slab of group 30. -/
abbrev slab30 : Rect S1024x4096 := Rect.unit (s := S1024x4096) ![0, 3840] S1024x128.size inb_S1024x4096_S1024x128_0_3840
/-- Column 30 of a [1024, 32] block: the parameters of group 30. -/
abbrev gcol30 : Rect S1024x32 := Rect.unit (s := S1024x32) ![0, 30] S1024x1.size inb_S1024x32_S1024x1_0_30
/-- Columns 3968 to 4095 of a [1024, 4096] block: the slab of group 31. -/
abbrev slab31 : Rect S1024x4096 := Rect.unit (s := S1024x4096) ![0, 3968] S1024x128.size inb_S1024x4096_S1024x128_0_3968
/-- Column 31 of a [1024, 32] block: the parameters of group 31. -/
abbrev gcol31 : Rect S1024x32 := Rect.unit (s := S1024x32) ![0, 31] S1024x1.size inb_S1024x32_S1024x1_0_31

/-! ## What the body leaves in the output block -/

/-- The output block after the body, from the three input blocks: slab g holds the group-g arithmetic on slab g of
    the codes `x0` and on column g of the scales `x1` and of the offsets `x2`. The slabs are listed last written first. -/
def out0_3 (x0 : Vec F S1024x4096 .i32) (x1 x2 : Vec F S1024x32 .f32) : Vec F S1024x4096 .bf16 :=
  View.canon [⟨slab31, k0_pay1 (k0_pay40 (View.ld x0 slab31)) (View.ld x1 gcol31) (View.ld x2 gcol31)⟩,
    ⟨slab30, k0_pay39 (View.ld x0 slab30) (View.ld x1 gcol30) (View.ld x2 gcol30)⟩,
    ⟨slab29, k0_pay38 (View.ld x0 slab29) (View.ld x1 gcol29) (View.ld x2 gcol29)⟩,
    ⟨slab28, k0_pay37 (k0_pay36 (View.ld x0 slab28)) (View.ld x1 gcol28) (View.ld x2 gcol28)⟩,
    ⟨slab27, k0_pay35 (View.ld x0 slab27) (View.ld x1 gcol27) (View.ld x2 gcol27)⟩,
    ⟨slab26, k0_pay34 (View.ld x0 slab26) (View.ld x1 gcol26) (View.ld x2 gcol26)⟩,
    ⟨slab25, k0_pay33 (k0_pay32 (View.ld x0 slab25)) (View.ld x1 gcol25) (View.ld x2 gcol25)⟩,
    ⟨slab24, k0_pay31 (View.ld x0 slab24) (View.ld x1 gcol24) (View.ld x2 gcol24)⟩,
    ⟨slab23, k0_pay30 (View.ld x0 slab23) (View.ld x1 gcol23) (View.ld x2 gcol23)⟩,
    ⟨slab22, k0_pay29 (View.ld x0 slab22) (View.ld x1 gcol22) (View.ld x2 gcol22)⟩,
    ⟨slab21, k0_pay28 (View.ld x0 slab21) (View.ld x1 gcol21) (View.ld x2 gcol21)⟩,
    ⟨slab20, k0_pay27 (View.ld x0 slab20) (View.ld x1 gcol20) (View.ld x2 gcol20)⟩,
    ⟨slab19, k0_pay26 (View.ld x0 slab19) (View.ld x1 gcol19) (View.ld x2 gcol19)⟩,
    ⟨slab18, k0_pay25 (View.ld x0 slab18) (View.ld x1 gcol18) (View.ld x2 gcol18)⟩,
    ⟨slab17, k0_pay24 (View.ld x0 slab17) (View.ld x1 gcol17) (View.ld x2 gcol17)⟩,
    ⟨slab16, k0_pay23 (View.ld x0 slab16) (View.ld x1 gcol16) (View.ld x2 gcol16)⟩,
    ⟨slab15, k0_pay22 (k0_pay21 (View.ld x0 slab15) (View.ld x1 gcol15) (View.ld x2 gcol15))⟩,
    ⟨slab14, k0_pay20 (View.ld x0 slab14) (View.ld x1 gcol14) (View.ld x2 gcol14)⟩,
    ⟨slab13, k0_pay19 (View.ld x0 slab13) (View.ld x1 gcol13) (View.ld x2 gcol13)⟩,
    ⟨slab12, k0_pay18 (k0_pay16 (View.ld x0 slab12)) (View.ld x2 gcol12) (k0_pay17 (View.ld x1 gcol12))⟩,
    ⟨slab11, k0_pay15 (View.ld x0 slab11) (View.ld x1 gcol11) (View.ld x2 gcol11)⟩,
    ⟨slab10, k0_pay14 (View.ld x0 slab10) (View.ld x1 gcol10) (View.ld x2 gcol10)⟩,
    ⟨slab9, k0_pay13 (k0_pay12 (View.ld x0 slab9)) (View.ld x1 gcol9) (View.ld x2 gcol9)⟩,
    ⟨slab8, k0_pay11 (View.ld x0 slab8) (View.ld x1 gcol8) (View.ld x2 gcol8)⟩,
    ⟨slab7, k0_pay10 (View.ld x0 slab7) (View.ld x1 gcol7) (View.ld x2 gcol7)⟩,
    ⟨slab6, k0_pay9 (k0_pay8 (View.ld x0 slab6)) (View.ld x1 gcol6) (View.ld x2 gcol6)⟩,
    ⟨slab5, k0_pay7 (View.ld x0 slab5) (View.ld x1 gcol5) (View.ld x2 gcol5)⟩,
    ⟨slab4, k0_pay6 (View.ld x0 slab4) (View.ld x1 gcol4) (View.ld x2 gcol4)⟩,
    ⟨slab3, k0_pay5 (View.ld x0 slab3) (View.ld x1 gcol3) (View.ld x2 gcol3)⟩,
    ⟨slab2, k0_pay4 (View.ld x0 slab2) (View.ld x1 gcol2) (View.ld x2 gcol2)⟩,
    ⟨slab1, k0_pay3 (View.ld x0 slab1) (View.ld x1 gcol1) (View.ld x2 gcol1)⟩,
    ⟨slab0, k0_pay2 (View.ld x0 slab0) (View.ld x1 gcol0) (View.ld x2 gcol0)⟩]

/-- The 32 slabs tile the block, so every entry of the block lies in one of them. -/
theorem cover0_3 (p0 p1 p2 p3 p4 p5 p6 p7 p8 p9 p10 p11 p12 p13 p14 p15 p16 p17 p18 p19 p20 p21 p22 p23 p24 p25 p26 p27 p28 p29 p30 p31 : Vec F S1024x128 .bf16) (y : S1024x4096.Idx) :
    ∃ pc ∈ ([⟨slab31, p31⟩, ⟨slab30, p30⟩, ⟨slab29, p29⟩, ⟨slab28, p28⟩, ⟨slab27, p27⟩, ⟨slab26, p26⟩, ⟨slab25, p25⟩, ⟨slab24, p24⟩, ⟨slab23, p23⟩, ⟨slab22, p22⟩, ⟨slab21, p21⟩, ⟨slab20, p20⟩, ⟨slab19, p19⟩, ⟨slab18, p18⟩, ⟨slab17, p17⟩, ⟨slab16, p16⟩, ⟨slab15, p15⟩, ⟨slab14, p14⟩, ⟨slab13, p13⟩, ⟨slab12, p12⟩, ⟨slab11, p11⟩, ⟨slab10, p10⟩, ⟨slab9, p9⟩, ⟨slab8, p8⟩, ⟨slab7, p7⟩, ⟨slab6, p6⟩, ⟨slab5, p5⟩, ⟨slab4, p4⟩, ⟨slab3, p3⟩, ⟨slab2, p2⟩, ⟨slab1, p1⟩, ⟨slab0, p0⟩] : List (View.Piece (Elt F) S1024x4096 .bf16)), y ∈ pc.1.set :=
  View.cover_of_tiledL [⟨slab31, p31⟩, ⟨slab30, p30⟩, ⟨slab29, p29⟩, ⟨slab28, p28⟩, ⟨slab27, p27⟩, ⟨slab26, p26⟩, ⟨slab25, p25⟩, ⟨slab24, p24⟩, ⟨slab23, p23⟩, ⟨slab22, p22⟩, ⟨slab21, p21⟩, ⟨slab20, p20⟩, ⟨slab19, p19⟩, ⟨slab18, p18⟩, ⟨slab17, p17⟩, ⟨slab16, p16⟩, ⟨slab15, p15⟩, ⟨slab14, p14⟩, ⟨slab13, p13⟩, ⟨slab12, p12⟩, ⟨slab11, p11⟩, ⟨slab10, p10⟩, ⟨slab9, p9⟩, ⟨slab8, p8⟩, ⟨slab7, p7⟩, ⟨slab6, p6⟩, ⟨slab5, p5⟩, ⟨slab4, p4⟩, ⟨slab3, p3⟩, ⟨slab2, p2⟩, ⟨slab1, p1⟩, ⟨slab0, p0⟩] S1024x128.size (by sl_kernel_rfl) y

/-! ## The body's run -/

set_option maxHeartbeats 4000000 in
/-- From the three input buffers held at contents reading `x0`, `x1`, `x2` and the output buffer held at anything,
    the body runs to its return with the inputs as they were and the output reading `out0_3 x0 x1 x2`: group after
    group it reads its slab of codes and its two columns and overwrites its slab of the output; the value it reads
    from the output slab beforehand is never used. -/
theorem sound_kernel0 (c : Dev nD) (E : Set ℕ) (i : grid0.Coords)
    (arg0 : Memref sig .tc .vmem S1024x4096 .i32) (harg0 : arg0.IsWhole) (arg1 : Memref sig .tc .vmem S1024x32 .f32) (harg1 : arg1.IsWhole)
    (arg2 : Memref sig .tc .vmem S1024x32 .f32) (harg2 : arg2.IsWhole) (arg3 : Memref sig .tc .vmem S1024x4096 .bf16) (harg3 : arg3.IsWhole)
    (x0 : Vec F S1024x4096 .i32) (x1 x2 : Vec F S1024x32 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__dequant_kernel i arg0 harg0 arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _ _ _ _ _ _ _ _ _ _ _ _ _ _ _ _ _ _ _ _ _ _ _ _ _ _ _ _ _ _)

/-! ## The region's proof data -/

/-- The proof data of the region on core `c`: the arrays as the region finds them; after the body at point `t` each
    input buffer holds its block and the output buffer holds `out0_3` of the three input blocks; the rest of the
    core's state is untouched, nothing is owed, the shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current buffer holds its block at every point. -/
theorem before0_0 (c : Dev nD) (t : Fin cfg0.N) (d) : (dat0 V c).before 0 t d = iblk0 V c 0 t :=
  held0_0_of V (dat0 V c) (A_eq0 V c 0) (after0_0 V c) t d
theorem before0_1 (c : Dev nD) (t : Fin cfg0.N) (d) : (dat0 V c).before 1 t d = iblk0 V c 1 t :=
  held0_1_of V (dat0 V c) (A_eq0 V c 1) (after0_1 V c) t d
theorem before0_2 (c : Dev nD) (t : Fin cfg0.N) (d) : (dat0 V c).before 2 t d = iblk0 V c 2 t :=
  held0_2_of V (dat0 V c) (A_eq0 V c 2) (after0_2 V c) t d

/-! ## The body obligation at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the run above applies; the rest of the state
    passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Deq

end
-- ==== Proof.MatRunsB.lean ====
/-
  The matrix-product kernel's body, run once per control case.

  The kernel walks a grid of 4 x 4 x 4 points; the last coordinate k walks the four blocks of 1024 columns that a
  block of the product sums over. Its body keeps a running sum in a scratch buffer: at k = 0 it first stores zeros
  there; at every k it adds the product of the current block of rows of the left matrix with the current block of
  rows of the right one to what the scratch holds; at k = 3 it copies the scratch into the output block. So a point
  is in one of three cases: the first block (zero, then add), a middle block (add), the last block (add, then copy out).
  For each case the body is run on arbitrary whole staging buffers; what each buffer is left with is a list of
  stored pieces that the run itself determines.
-/
import proofs.«132169_j81449759801528_2_alg».proof.Proof.Gen.Kernel.Launch
import proofs.«132169_j81449759801528_2_alg».proof.Proof.Gen.Kernel.Skeleton
import proofs.«132169_j81449759801528_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The body's first test: this is the first block of the sum (k = 0). -/
abbrev cond1_0 (i : grid1.Coords) : Prop := (Scalar.cmpi .ne (Scalar.extui (Scalar.cmpi .eq (BitVec.ofNat 32 (i 2).val) 0#32)) 0#32) = 1#1
/-- The points run with k fastest, so it holds at the points divisible by 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second test: this is the last block of the sum (k = 3). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle: everywhere but at the last block, where it is stored and written back -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The buffers the body is called on -/

/-- One staging buffer of the output window, as a view through which its contents are stated. -/
abbrev VO1_2 : View sig .tc .vmem S2048x1024 .f32 := (Memref.whole cc1_stg2_0 : Memref sig .tc .vmem S2048x1024 .f32).view
/-- Each window's current staging buffer at point t. -/
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .f32 := win1_2.stage (cfg1.slots t 2)
abbrev hs1_2 (t : Fin cfg1.N) : (ms1_2 t).IsWhole := hstage1_2 ((cfg1.slots t 2).cast nbuf1_2)
/-- The running sum's scratch buffer, and the view through which its contents are stated. -/
abbrev scM1_0 : Memref sig .tc .vmem S2048x1024 .f32 := Memref.whole cc1_scratch0
abbrev VS1_0 : View sig .tc .vmem S2048x1024 .f32 := scM1_0.view

/-! ## The body in each case -/

set_option maxHeartbeats 1000000 in
/-- FIRST BLOCK (k = 0, not the last): on whole buffers, the two inputs at x0 and x1, the output at contents it hands back
    untouched, the scratch at anything, the body runs and leaves the scratch with the found pieces written. -/
noncomputable def kernelRun1_A (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .f32) (x1 : Vec F S1024x1024 .bf16) :
    { LS0 : List (View.Piece (Elt F) S2048x1024 .f32) //
      ∀ (xi2 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- A MIDDLE BLOCK (neither first nor last): the scratch comes in at the running sum xs0 the point before left. -/
noncomputable def kernelRun1_B (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .f32) (x1 : Vec F S1024x1024 .bf16) (xs0 : Vec F S2048x1024 .f32) :
    { LS0 : List (View.Piece (Elt F) S2048x1024 .f32) //
      ∀ (xi2 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- THE LAST BLOCK (k = 3): the scratch comes in at the running sum xs0, the output at anything; both end with found pieces written. -/
noncomputable def kernelRun1_C (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .f32) (x1 : Vec F S1024x1024 .bf16) (xs0 : Vec F S2048x1024 .f32) :
    Σ' (L2 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Mat

end
-- ==== Proof.MatFrameB.lean ====
/-
  The matrix-product kernel as a pipeline region: what its scratch and its output hold after every grid point.

  The region is entered with the machine's buffers at contents V. Point t of the 4 x 4 x 4 grid (k fastest) reads
  block (i, k) of the left matrix and block (j, k) of the right one. The scratch after point t is, by recursion on t:
  at a first block (t divisible by 4) what the first-block case leaves from the two input blocks; otherwise what the
  middle- or last-block case leaves from the two input blocks and the scratch after point t - 1. The output's staging
  buffer is stored only at a last block (t = 3 mod 4), where it receives the scratch; elsewhere it is idle, neither
  stored nor written back. The invariant carried from point to point holds the scratch at exactly that running
  sum (before the first point: at anything), the other kernel's staging buffers and the generator register untouched.
-/
import proofs.«132169_j81449759801528_2_alg».proof.Proof.MatRunsB

set_option maxRecDepth 16384

noncomputable section

namespace Cert.Kernel.Mat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its pieces read back -/

/-- The first-block case's pieces cover the scratch. -/
theorem scover1_A (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .f32) (x1 : Vec F S1024x1024 .bf16) (y : S2048x1024.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S2048x1024.size (by sl_kernel_rfl) y
/-- What the first-block case leaves in the scratch. -/
def sout1_A (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : cond1_0 i) (hc1 : ¬cond1_1 i)
    (x0 : Vec F S2048x1024 .f32) (x1 : Vec F S1024x1024 .bf16) : Vec F S2048x1024 .f32 :=
  VS1_0.read (Elt F) (VS1_0.writes (Elt F) VS1_0.junk (kernelRun1_A c i arg3 harg3 arg4 harg4 arg5 harg5 arg6 harg6 hc0 hc1 x0 x1).1)

theorem scover1_B (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .f32) (x1 : Vec F S1024x1024 .bf16) (xs0 : Vec F S2048x1024 .f32) (y : S2048x1024.Idx) :
    ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S2048x1024.size (by sl_kernel_rfl) y
/-- What a middle-block case leaves in the scratch. -/
def sout1_B (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : ¬cond1_1 i)
    (x0 : Vec F S2048x1024 .f32) (x1 : Vec F S1024x1024 .bf16) (xs0 : Vec F S2048x1024 .f32) : Vec F S2048x1024 .f32 :=
  VS1_0.read (Elt F) (VS1_0.writes (Elt F) VS1_0.junk (kernelRun1_B c i arg3 harg3 arg4 harg4 arg5 harg5 arg6 harg6 hc0 hc1 x0 x1 xs0).1)

theorem cover1_C (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .f32) (x1 : Vec F S1024x1024 .bf16) (xs0 : Vec F S2048x1024 .f32) (y : S2048x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S2048x1024.size (by sl_kernel_rfl) y
/-- What the last-block case leaves in the output's staging buffer. -/
def out1_C (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .f32) (x1 : Vec F S1024x1024 .bf16) (xs0 : Vec F S2048x1024 .f32) : Vec F S2048x1024 .f32 :=
  VO1_2.read (Elt F) (VO1_2.writes (Elt F) VO1_2.junk (kernelRun1_C c i arg3 harg3 arg4 harg4 arg5 harg5 arg6 harg6 hc0 hc1 x0 x1 xs0).1)
theorem scover1_C (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .f32) (x1 : Vec F S1024x1024 .bf16) (xs0 : Vec F S2048x1024 .f32) (y : S2048x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S2048x1024.size (by sl_kernel_rfl) y
/-- What the last-block case leaves in the scratch. -/
def sout1_C (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond1_0 i) (hc1 : cond1_1 i)
    (x0 : Vec F S2048x1024 .f32) (x1 : Vec F S1024x1024 .bf16) (xs0 : Vec F S2048x1024 .f32) : Vec F S2048x1024 .f32 :=
  VS1_0.read (Elt F) (VS1_0.writes (Elt F) VS1_0.junk (kernelRun1_C c i arg3 harg3 arg4 harg4 arg5 harg5 arg6 harg6 hc0 hc1 x0 x1 xs0).2.1)

/-- The output's staging buffer where the body stores nothing into it: a value nothing reads (the window is neither
    written back nor read there). -/
def idleOut : Vec F S2048x1024 .f32 := VO1_2.read (Elt F) VO1_2.junk

/-! ## The accumulation, point by point -/

/-- What the output's staging buffer (first component) and the scratch (second) hold after the body at position n. -/
def outsAt1 (c : Dev nD) : (n : ℕ) → n < cfg1.N → Vec F S2048x1024 .f32 × Vec F S2048x1024 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first block. -/
theorem outsAt1_A (c : Dev nD) (t : Fin cfg1.N) (h0 : t.val % 4 = 0) (h1 : ¬t.val % 4 = 3) :
    outsAt1 V c t.val t.isLt = (idleOut, sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

/-- At a middle block: over what the point before left. -/
theorem outsAt1_B (c : Dev nD) (t : Fin cfg1.N) (h0 : ¬t.val % 4 = 0) (h1 : ¬t.val % 4 = 3) :
    outsAt1 V c t.val t.isLt = (idleOut, sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block: over what the point before left. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried between points -/

/-- The other kernel's eight staging buffers, each whole at some contents: scoped buffers this kernel never touches. -/
def others1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class's invariant with the scratch split off as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- Before position n: before the first point the class's invariant (the scratch at anything); afterwards the scratch at what
    the point before left, the other buffers and the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The arrays as the region finds them; after the body at point t the two inputs' buffers at their blocks and the
    output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t: the invariant, nothing owed, each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the position modulo 4 says which case the point is in; the
    invariant hands the body the scratch at the running sum so far (at anything at the very first point) and takes it back at
    this point's; at a last block the output's buffer ends at what the case stores, elsewhere it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 4 = 3
  · have h0 : ¬t.val % 4 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold out1_C sout1_C; (try dsimp only)
    rw [PhiS_castSucc V c t, PhiS_pos V c _ _ hz]
    iintro ⟨⟨⟨Ho0, Ho1, Ho2, Ho3, Ho4, Ho5, Ho6, Ho7, HS0⟩, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Ho0 Ho1 Ho2 Ho3 Ho4 Ho5 Ho6 Ho7 HS0 Hg]
    · isplitl [Ho0 Ho1 Ho2 Ho3 Ho4 Ho5 Ho6 Ho7 HS0]
      ·
        isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        isplitl [Ho7]; · iexact Ho7
        unfold owns; iexists _; isplitr
        swap; · iexact HS0
        ipureintro; exact View.read_writes_of_cover _ _ _ _ _ (scover1_C c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C c _ _ _ _ _ _ _ _ _ _ _ _ _ _)
  · have hnc : ¬cond1_1 (grid1.coords t) := fun h => h1 ((hcond1_1 t).mp h)
    rw [Dat.leavesExact_idle (dat1 V c) 2 t (idleAt1_2 t hnc) (noFlush1_2 t hnc)]
    by_cases h0 : t.val % 4 = 0
    · rw [outsAt1_A V c t h0 h1]
      unfold sout1_A; (try dsimp only)
      by_cases hz : t.val = 0
      · rw [PhiS_castSucc V c t, PhiS_zero V c _ _ hz, PhiA1_eq]
        iintro ⟨⟨⟨Ho0, Ho1, Ho2, Ho3, Ho4, Ho5, Ho6, Ho7, HS0⟩, Hg⟩, Ho, ⟨%d0, H0⟩, ⟨%d1, H1⟩, ⟨%d2, H2⟩⟩
        iapply ((kernelRun1_A c (grid1.coords t) _ _ _ _ _ _ _ _ ((hcond1_0 t).mpr h0) hnc (iblk1 V c 0 t) (iblk1 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ho0 Ho1 Ho2 Ho3 Ho4 Ho5 Ho6 Ho7 HS0 Hg]
        · isplitl [Ho0 Ho1 Ho2 Ho3 Ho4 Ho5 Ho6 Ho7 HS0]
          ·
            isplitl [Ho0]; · iexact Ho0
            isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            unfold owns; iexists _; isplitr
            swap; · iexact HS0
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨⟨Ho0, Ho1, Ho2, Ho3, Ho4, Ho5, Ho6, Ho7, HS0⟩, Hg⟩, Ho, ⟨%d0, H0⟩, ⟨%d1, H1⟩, ⟨%d2, H2⟩⟩
        iapply ((kernelRun1_A c (grid1.coords t) _ _ _ _ _ _ _ _ ((hcond1_0 t).mpr h0) hnc (iblk1 V c 0 t) (iblk1 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Ho0 Ho1 Ho2 Ho3 Ho4 Ho5 Ho6 Ho7 HS0 Hg]
        · isplitl [Ho0 Ho1 Ho2 Ho3 Ho4 Ho5 Ho6 Ho7 HS0]
          ·
            isplitl [Ho0]; · iexact Ho0
            isplitl [Ho1]; · iexact Ho1
            isplitl [Ho2]; · iexact Ho2
            isplitl [Ho3]; · iexact Ho3
            isplitl [Ho4]; · iexact Ho4
            isplitl [Ho5]; · iexact Ho5
            isplitl [Ho6]; · iexact Ho6
            isplitl [Ho7]; · iexact Ho7
            unfold owns; iexists _; isplitr
            swap; · iexact HS0
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
    · have hz : t.val ≠ 0 := fun h => h0 (by rw [h])
      rw [outsAt1_B V c t h0 h1]
      unfold sout1_B; (try dsimp only)
      rw [PhiS_castSucc V c t, PhiS_pos V c _ _ hz]
      iintro ⟨⟨⟨Ho0, Ho1, Ho2, Ho3, Ho4, Ho5, Ho6, Ho7, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) hnc (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ho0 Ho1 Ho2 Ho3 Ho4 Ho5 Ho6 Ho7 HS0 Hg]
      · isplitl [Ho0 Ho1 Ho2 Ho3 Ho4 Ho5 Ho6 Ho7 HS0]
        ·
          isplitl [Ho0]; · iexact Ho0
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ho0, Ho1, Ho2, Ho3, Ho4, Ho5, Ho6, Ho7, HS0⟩, Hg⟩
  isplitl [Ho0 Ho1 Ho2 Ho3 Ho4 Ho5 Ho6 Ho7 HS0]
  ·
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Mat

end
-- ==== Proof.KRunB.lean ====
/-
  The whole program's run: a reshape of the activations to a matrix, the dequantization region, the matrix-product
  region, a reshape of the product back to the activations' shape.

  The machine's unscoped buffers are followed from boundary to boundary: as launched; after the first reshape; after the
  dequantization region, whose arrays end at what its write-backs leave and every other buffer as it was; after the
  matrix-product region likewise; after the last reshape. Each region is entered from every unscoped buffer held at the
  boundary's contents beside the generator register and an empty debt, and left the same way. The conclusion: every
  weakly fair execution terminates without a fault, and in the final state every unscoped buffer holds the last boundary's
  contents. The arguments are written by nothing, so they end as launched.
-/
import proofs.«132169_j81449759801528_2_alg».proof.Proof.DeqFrameB
import proofs.«132169_j81449759801528_2_alg».proof.Proof.MatFrameB
import proofs.«132169_j81449759801528_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first reshape: the dequantization region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the dequantization region: its arrays at what its write-backs leave, every other buffer as entered. -/
def W2 (c : Dev nD) : Valuation τ sig (Elt F) :=
  Pipeline.withArrays spec0 c (W1 m ρ c) fun w => (Deq.dat0 (V1 m ρ) c).arrAt w cfg0.N
theorem W2_arr (c : Dev nD) (w : Fin cfg0.W) :
    W2 m ρ c (Proc.devRef .tc (Pipeline.arrRef spec0 w)) = (Deq.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Deq.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the matrix-product region. -/
def W3 (c : Dev nD) : Valuation τ sig (Elt F) :=
  Pipeline.withArrays spec1 c (W2 m ρ c) fun w => (Mat.dat1 (V2 m ρ) c).arrAt w cfg1.N
theorem W3_arr (c : Dev nD) (w : Fin cfg1.W) :
    W3 m ρ c (Proc.devRef .tc (Pipeline.arrRef spec1 w)) = (Mat.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Mat.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg1) := W3_of_ne m ρ c main_arg1 (by decide)
    _ = W1 m ρ c (Proc.devRef .tc main_arg1) := (W2_arr m ρ c 0).trans (((Deq.dat0 (V1 m ρ) c).arrAt_in 0 rfl _).trans (Deq.A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg2) := W3_of_ne m ρ c main_arg2 (by decide)
    _ = W1 m ρ c (Proc.devRef .tc main_arg2) := (W2_arr m ρ c 1).trans (((Deq.dat0 (V1 m ρ) c).arrAt_in 1 rfl _).trans (Deq.A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg3) := W3_of_ne m ρ c main_arg3 (by decide)
    _ = W1 m ρ c (Proc.devRef .tc main_arg3) := (W2_arr m ρ c 2).trans (((Deq.dat0 (V1 m ρ) c).arrAt_in 2 rfl _).trans (Deq.A_eq0 (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => Deq.dat0 (V1 m ρ) c
  | ⟨1, _⟩ => fun c => Mat.dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and an empty debt. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The dequantization region: its arrays split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Deq.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: likewise, its invariant entered from the class's and left to it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Mat.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Mat.hin1 (V2 m ρ) c)
    unfold Pipeline.ΦA
    iintro ⟨Hp, -, Hr⟩
    isplitl [Hr]; · iexact Hr
    iexact Hp
  hout c := by
    rw [Pipeline.ownSems0_none]
    refine (Mat.hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Run

end
-- ==== Proof.Spec.lean ====
/-
  A linear layer whose weight matrix is stored as integer codes, dequantized group by group.

  The weight has 4096 rows (output features) and 4096 columns (input features); the columns come in 32 groups of
  128 consecutive columns, and every (row, group) pair has its own scale and offset. The dequantized weight at
  (o, k) is  code(o, k) * scale(o, k / 128) - offset(o, k / 128), the code read as a signed integer. The layer's
  output at (b, s, o) is the sum over k of x(b, s, k) times the dequantized weight at (o, k): each row of x against
  each row of the weight. Everything is stated on the extended reals; no operation here needs its arguments finite.

  `rows` reads the activations [4, 2048, 4096] as a matrix of 4 * 2048 rows, and `prod2` is the row-against-row
  product of two matrices with 4096 columns; `out_eq_prod2` says the layer is that product of the rows of x with
  the dequantized weight.
-/
import Idealize.ShloMosaic.PureOps.Ideal
import Idealize.ShloMosaic.Lib.ValueIdx

noncomputable section

open scoped BigOperators

namespace Cert.QuantLinear

open Idealize.ShloMosaic Idealize.ShloMosaic.ValueIdx

/-- The shapes: activations, weight (codes and dequantized), per-group parameters, activations as a matrix. -/
abbrev SX : Shape := ⟨3, ![4, 2048, 4096]⟩
abbrev SW : Shape := ⟨2, ![4096, 4096]⟩
abbrev SG : Shape := ⟨2, ![4096, 32]⟩
abbrev SR : Shape := ⟨2, ![8192, 4096]⟩

/-- The group of column `k`: 128 consecutive columns share a scale and an offset. -/
def grp (k : Fin 4096) : Fin 32 := ⟨k.val / 128, by have := k.isLt; omega⟩

theorem grp_val (k : Fin 4096) : (grp k).val = k.val / 128 := rfl

/-- The dequantized weight: code times the group's scale, minus the group's offset. -/
def wq (code : SW.Idx → BitVec 32) (scale off : SG.Idx → EReal) : SW.Idx → EReal := fun j =>
  (((code j).toInt : ℝ) : EReal) * scale (ix2 (n0 := 4096) (n1 := 32) (j 0) (grp (j 1)))
    - off (ix2 (n0 := 4096) (n1 := 32) (j 0) (grp (j 1)))

/-- Row `r` of the activations read as a matrix is the activations' row (r / 2048, r % 2048). -/
def rows (x : SX.Idx → EReal) : SR.Idx → EReal := fun j =>
  x (ix3 (n0 := 4) (n1 := 2048) (n2 := 4096) ⟨(j 0).val / 2048, by have := idx2_lt0 j; omega⟩
    ⟨(j 0).val % 2048, Nat.mod_lt _ (by decide)⟩ (j 1))

/-- Row against row: entry (r, o) is the sum over k of l(r, k) * w(o, k). -/
def prod2 (l : SR.Idx → EReal) (w : SW.Idx → EReal) : SR.Idx → EReal := fun j =>
  ∑ k : Fin 4096, l (ix2 (n0 := 8192) (n1 := 4096) (j 0) k) * w (ix2 (n0 := 4096) (n1 := 4096) (j 1) k)

/-- The layer: entry (b, s, o) is the sum over k of x(b, s, k) times the dequantized weight at (o, k). -/
def out (x : SX.Idx → EReal) (code : SW.Idx → BitVec 32) (scale off : SG.Idx → EReal) : SX.Idx → EReal := fun i =>
  ∑ k : Fin 4096, x (ix3 (n0 := 4) (n1 := 2048) (n2 := 4096) (i 0) (i 1) k)
    * wq code scale off (ix2 (n0 := 4096) (n1 := 4096) (i 2) k)

/-- Entry (b, s, o) of the layer is entry (b * 2048 + s, o) of the rows of x against the dequantized weight. -/
theorem out_eq_prod2 (x : SX.Idx → EReal) (code : SW.Idx → BitVec 32) (scale off : SG.Idx → EReal) (i : SX.Idx)
    (j : SR.Idx) (h0 : (j 0).val = (i 0).val * 2048 + (i 1).val) (h1 : (j 1).val = (i 2).val) :
    out x code scale off i = prod2 (rows x) (wq code scale off) j := by
  have hi0 : (i 0).val < 4 := (i 0).isLt
  have hi1 : (i 1).val < 2048 := (i 1).isLt
  unfold out prod2 rows
  refine Finset.sum_congr rfl fun k _ => ?_
  congr 1
  · refine congrArg x (funext fun a => Fin.ext ?_)
    match a with
    | ⟨0, _⟩ => show (i 0).val = (j 0).val / 2048; omega
    | ⟨1, _⟩ => show (i 1).val = (j 0).val % 2048; omega
    | ⟨2, _⟩ => rfl
  · refine congrArg (wq code scale off) (funext fun a => Fin.ext ?_)
    match a with
    | ⟨0, _⟩ => exact h1.symm
    | ⟨1, _⟩ => rfl

end Cert.QuantLinear

end
-- ==== Proof.DeqValue.lean ====
/-
  What the dequantization region leaves in the weight array, on the extended reals.

  At the ideal semantics the rounding to the narrower format is the identity and the integer code becomes the real
  number it denotes, so each of the 32 slabs a point writes holds code * scale - offset with the scale and offset of
  the slab's group. A column k of the block lies in slab k / 128, so the whole output block is one function of the
  three input blocks (`out0_3_apply`). Point t of the grid handles rows 1024 t to 1024 t + 1023 of every array, and
  the four points' blocks tile the weight array, so after the region the array is the dequantized weight of the
  arrays the region found (`final0`).
-/
import proofs.«132169_j81449759801528_2_alg».proof.Proof.DeqFrame
import proofs.«132169_j81449759801528_2_alg».proof.Proof.Spec
import Idealize.ShloMosaic.Lib.Pipeline.Value

set_option maxRecDepth 16384

noncomputable section

namespace Cert.KernelIdeal.DeqValue

open Cert.KernelIdeal Cert.KernelIdeal.Gen Idealize.ShloMosaic Idealize.ShloMosaic.TcCoe Idealize.SL.Sem
open Idealize.ShloMosaic.Pipeline (Dat)
open Idealize.ShloMosaic.ValueIdx
open Cert.QuantLinear (grp grp_val wq)

/-! ## One slab -/

/-- The dequantized block as one function of the three input blocks: at row r and column k, the code read as a
    signed integer times the scale of group k / 128, minus that group's offset. -/
def deq (x0 : Vec Ideal S1024x4096 .i32) (x1 x2 : Vec Ideal S1024x32 .f32) : Vec Ideal S1024x4096 .bf16 := fun y =>
  (((x0 y).toInt : ℝ) : EReal) * x1 (ix2 (n0 := 1024) (n1 := 32) (y 0) (grp (y 1)))
    - x2 (ix2 (n0 := 1024) (n1 := 32) (y 0) (grp (y 1)))

/-- A column [1024, 1] spread over 128 columns reads, at (r, c), the column's entry at row r. -/
theorem spread_apply (s : Vec Ideal S1024x1 .f32) (x : S1024x128.Idx) :
    broadcastTo S1024x128 s broadcasts_S1024x1_S1024x128 x = s (ix2 (n0 := 1024) (n1 := 1) (x 0) (0 : Fin 1)) := by
  refine broadcastTo_apply s _ x _ fun a => ?_
  match a with
  | ⟨0, _⟩ => rfl
  | ⟨1, _⟩ => rfl

/-- The arithmetic of one group, on the slab at columns `col = 128 g` of the codes and on column `g` of the scales and
    of the offsets, is the slab of `deq` at those columns: a column `col + c` with `c < 128` belongs to group `g`. -/
theorem slab_apply (col g : ℕ) (hc : col = 128 * g)
    (inbC : ∀ a, (![0, col] : Fin 2 → ℕ) a + S1024x128.size a ≤ S1024x4096.size a)
    (inbG : ∀ a, (![0, g] : Fin 2 → ℕ) a + S1024x1.size a ≤ S1024x32.size a)
    (x0 : Vec Ideal S1024x4096 .i32) (x1 x2 : Vec Ideal S1024x32 .f32) (w : Vec Ideal S1024x128 .bf16)
    (hw : w = k0_pay2 (F := Ideal) (View.ld x0 (Rect.unit (s := S1024x4096) ![0, col] S1024x128.size inbC))
              (View.ld x1 (Rect.unit (s := S1024x32) ![0, g] S1024x1.size inbG)) (View.ld x2 (Rect.unit (s := S1024x32) ![0, g] S1024x1.size inbG)))
    (x : S1024x128.Idx) :
    w x = deq x0 x1 x2 ((Rect.unit (s := S1024x4096) ![0, col] S1024x128.size inbC).emb x) := by
  subst hw
  unfold k0_pay2
  rw [truncf_apply, subf_apply, mulf_apply, sitofp_apply, spread_apply, spread_apply]
  have hx1 : (x 1).val < 128 := (x 1).isLt
  have hk : (Rect.unit (s := S1024x32) ![0, g] S1024x1.size inbG).idx (ix2 (n0 := 1024) (n1 := 1) (x 0) (0 : Fin 1))
      = ix2 (n0 := 1024) (n1 := 32) (((Rect.unit (s := S1024x4096) ![0, col] S1024x128.size inbC).emb x) 0)
          (grp (((Rect.unit (s := S1024x4096) ![0, col] S1024x128.size inbC).emb x) 1)) := by
    funext a; apply Fin.ext
    match a with
    | ⟨0, _⟩ => rfl
    | ⟨1, _⟩ =>
      show g + 1 * 0 = (col + 1 * (x 1).val) / 128
      omega
  show FloatOps.sitofp (F := Ideal) .f32 (x0 ((Rect.unit (s := S1024x4096) ![0, col] S1024x128.size inbC).idx x))
      * x1 ((Rect.unit (s := S1024x32) ![0, g] S1024x1.size inbG).idx (ix2 (n0 := 1024) (n1 := 1) (x 0) (0 : Fin 1)))
      - x2 ((Rect.unit (s := S1024x32) ![0, g] S1024x1.size inbG).idx (ix2 (n0 := 1024) (n1 := 1) (x 0) (0 : Fin 1))) = _
  rw [hk]
  rfl

/-! ## The whole block -/

/-- The output block the body leaves is `deq` of the three input blocks, entry by entry: each of the 32 slabs is the
    slab of `deq` at its columns, and the slabs tile the block. -/
theorem out0_3_eq (x0 : Vec Ideal S1024x4096 .i32) (x1 x2 : Vec Ideal S1024x32 .f32) (y : S1024x4096.Idx) :
    Deq.out0_3 (F := Ideal) x0 x1 x2 y = deq x0 x1 x2 y := by
  unfold Deq.out0_3
  refine View.canon_apply_of_pieces (deq x0 x1 x2) _ ?_ y (Deq.cover0_3 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => slab_apply 3968 31 rfl _ _ x0 x1 x2 _ rfl x
  · exact fun x => slab_apply 3840 30 rfl _ _ x0 x1 x2 _ rfl x
  · exact fun x => slab_apply 3712 29 rfl _ _ x0 x1 x2 _ rfl x
  · exact fun x => slab_apply 3584 28 rfl _ _ x0 x1 x2 _ rfl x
  · exact fun x => slab_apply 3456 27 rfl _ _ x0 x1 x2 _ rfl x
  · exact fun x => slab_apply 3328 26 rfl _ _ x0 x1 x2 _ rfl x
  · exact fun x => slab_apply 3200 25 rfl _ _ x0 x1 x2 _ rfl x
  · exact fun x => slab_apply 3072 24 rfl _ _ x0 x1 x2 _ rfl x
  · exact fun x => slab_apply 2944 23 rfl _ _ x0 x1 x2 _ rfl x
  · exact fun x => slab_apply 2816 22 rfl _ _ x0 x1 x2 _ rfl x
  · exact fun x => slab_apply 2688 21 rfl _ _ x0 x1 x2 _ rfl x
  · exact fun x => slab_apply 2560 20 rfl _ _ x0 x1 x2 _ rfl x
  · exact fun x => slab_apply 2432 19 rfl _ _ x0 x1 x2 _ rfl x
  · exact fun x => slab_apply 2304 18 rfl _ _ x0 x1 x2 _ rfl x
  · exact fun x => slab_apply 2176 17 rfl _ _ x0 x1 x2 _ rfl x
  · exact fun x => slab_apply 2048 16 rfl _ _ x0 x1 x2 _ rfl x
  · exact fun x => slab_apply 1920 15 rfl _ _ x0 x1 x2 _ rfl x
  · exact fun x => slab_apply 1792 14 rfl _ _ x0 x1 x2 _ rfl x
  · exact fun x => slab_apply 1664 13 rfl _ _ x0 x1 x2 _ rfl x
  · exact fun x => slab_apply 1536 12 rfl _ _ x0 x1 x2 _ rfl x
  · exact fun x => slab_apply 1408 11 rfl _ _ x0 x1 x2 _ rfl x
  · exact fun x => slab_apply 1280 10 rfl _ _ x0 x1 x2 _ rfl x
  · exact fun x => slab_apply 1152 9 rfl _ _ x0 x1 x2 _ rfl x
  · exact fun x => slab_apply 1024 8 rfl _ _ x0 x1 x2 _ rfl x
  · exact fun x => slab_apply 896 7 rfl _ _ x0 x1 x2 _ rfl x
  · exact fun x => slab_apply 768 6 rfl _ _ x0 x1 x2 _ rfl x
  · exact fun x => slab_apply 640 5 rfl _ _ x0 x1 x2 _ rfl x
  · exact fun x => slab_apply 512 4 rfl _ _ x0 x1 x2 _ rfl x
  · exact fun x => slab_apply 384 3 rfl _ _ x0 x1 x2 _ rfl x
  · exact fun x => slab_apply 256 2 rfl _ _ x0 x1 x2 _ rfl x
  · exact fun x => slab_apply 128 1 rfl _ _ x0 x1 x2 _ rfl x
  · exact fun x => slab_apply 0 0 rfl _ _ x0 x1 x2 _ rfl x

/-- At row r and column k the output block holds the code times the scale of k's group, minus that group's offset. -/
theorem out0_3_apply (x0 : Vec Ideal S1024x4096 .i32) (x1 x2 : Vec Ideal S1024x32 .f32) (r : Fin 1024) (k : Fin 4096) :
    Deq.out0_3 (F := Ideal) x0 x1 x2 (ix2 r k)
      = (((x0 (ix2 r k)).toInt : ℝ) : EReal) * x1 (ix2 r (Cert.QuantLinear.grp k)) - x2 (ix2 r (Cert.QuantLinear.grp k)) := by
  rw [out0_3_eq]
  rfl

/-! ## From the blocks to the array -/

variable (V : (c : Dev nD) → (b : Ref sig .tc) → Buf (Elt Ideal) ((c : Thread nD τ).loc b))

/-- The index maps over the four points of the grid: every window's block index on the rows is the point's number,
    and its block index on the columns is 0. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the dequantized weight of the arrays the region found: rows
    1024 t to 1024 t + 1023 of the codes, scales and offsets are the point's input blocks. -/
theorem flushed3_eq (c : Dev nD) (t : Fin cfg0.N) :
    (Deq.dat0 V c).flushed 3 t
      = ((cfg0.win 3).blk t).view.read (Elt Ideal) (wq (V c main_arg1) (V c main_arg2) (V c main_arg3)) := by
  show (cfg0.win 3).cut (grid0.coords t) ((Deq.dat0 V c).after 3 t) = _
  rw [Deq.after0_3]
  obtain ⟨e0, e1, a0, a1, b0, b1, c0, c1⟩ := idx_facts t
  funext j
  show Deq.out0_3 (F := Ideal) (Deq.iblk0 V c 0 t) (Deq.iblk0 V c 1 t) (Deq.iblk0 V c 2 t) j
      = wq (V c main_arg1) (V c main_arg2) (V c main_arg3) (((cfg0.win 3).blk t).view.emb j)
  rw [out0_3_eq]
  have hj0 : (j 0).val < 1024 := (j 0).isLt
  have hj1 : (j 1).val < 4096 := (j 1).isLt
  have h0 : ((cfg0.win 0).blk t).view.emb j = ((cfg0.win 3).blk t).view.emb j := by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 4096 + 1 * (j 1).val = win0_3.index t (1 : Fin 2) * 4096 + 1 * (j 1).val; omega
  have h1 : ((cfg0.win 1).blk t).view.emb (ix2 (n0 := 1024) (n1 := 32) (j 0) (grp (j 1)))
      = ix2 (n0 := 4096) (n1 := 32) ((((cfg0.win 3).blk t).view.emb j) 0) (grp ((((cfg0.win 3).blk t).view.emb j) 1)) := by
    funext a; apply Fin.ext
    match a with
    | ⟨0, _⟩ => show win0_1.index t (0 : Fin 2) * 1024 + 1 * (j 0).val = win0_3.index t (0 : Fin 2) * 1024 + 1 * (j 0).val; omega
    | ⟨1, _⟩ => show win0_1.index t (1 : Fin 2) * 32 + 1 * ((j 1).val / 128) = (win0_3.index t (1 : Fin 2) * 4096 + 1 * (j 1).val) / 128; omega
  have h2 : ((cfg0.win 2).blk t).view.emb (ix2 (n0 := 1024) (n1 := 32) (j 0) (grp (j 1)))
      = ix2 (n0 := 4096) (n1 := 32) ((((cfg0.win 3).blk t).view.emb j) 0) (grp ((((cfg0.win 3).blk t).view.emb j) 1)) := by
    funext a; apply Fin.ext
    match a with
    | ⟨0, _⟩ => show win0_2.index t (0 : Fin 2) * 1024 + 1 * (j 0).val = win0_3.index t (0 : Fin 2) * 1024 + 1 * (j 0).val; omega
    | ⟨1, _⟩ => show win0_2.index t (1 : Fin 2) * 32 + 1 * ((j 1).val / 128) = (win0_3.index t (1 : Fin 2) * 4096 + 1 * (j 1).val) / 128; omega
  show (((V c main_arg1 (((cfg0.win 0).blk t).view.emb j)).toInt : ℝ) : EReal)
        * V c main_arg2 (((cfg0.win 1).blk t).view.emb (ix2 (n0 := 1024) (n1 := 32) (j 0) (grp (j 1))))
        - V c main_arg3 (((cfg0.win 2).blk t).view.emb (ix2 (n0 := 1024) (n1 := 32) (j 0) (grp (j 1))))
      = wq (V c main_arg1) (V c main_arg2) (V c main_arg3) (((cfg0.win 3).blk t).view.emb j)
  rw [h0, h1, h2]
  rfl

/-- An index of the weight array lies in point `t`'s block exactly when each coordinate lies in the block's range. -/
theorem mem_blk3 (t : Fin cfg0.N) (i : S4096x4096.Idx) :
    i ∈ ((cfg0.win 3).blk t).view.set ↔ ∀ a : Fin 2, win0_3.index t a * S1024x4096.size a ≤ (i a).val
      ∧ (i a).val < win0_3.index t a * S1024x4096.size a + S1024x4096.size a := by
  show i ∈ ((View.whole main_v1).slice (win0_3.rect t)).set ↔ _
  rw [View.set_slice_whole, Rect.mem_set_unit]
  exact Iff.rfl

/-- Every index of the weight array lies in the block of the point numbered by its row divided by 1024. -/
theorem covered3 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  refine ⟨⟨(i 0).val / 1024, by rw [show cfg0.N = 4 from N_0]; omega⟩, flush0_3 _, ?_⟩
  obtain ⟨e0, e1, -⟩ := idx_facts ⟨(i 0).val / 1024, by rw [show cfg0.N = 4 from N_0]; omega⟩
  rw [mem_blk3]
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 4096 ≤ (i 1).val ∧ (i 1).val < win0_3.index _ (1 : Fin 2) * 4096 + 4096
    rw [e1]; omega

/-- After the region the weight array is the dequantized weight of the codes, scales and offsets the region found. -/
theorem final0 (c : Dev nD) :
    (Deq.dat0 V c).arrAt 3 cfg0.N = wq (V c main_arg1) (V c main_arg2) (V c main_arg3) :=
  (Deq.dat0 V c).arrAt_eq_of_cover 3 _ (fun t _ => flushed3_eq V c t) covered3

end Cert.KernelIdeal.DeqValue

end
-- ==== Proof.MatCover.lean ====
/-
  From the blocks of the matrix-product region to its output array.

  The grid has 4 x 4 x 4 points, the last coordinate fastest: point t has row-block index t / 16, column-block index
  t / 4 mod 4 and step t mod 4 along the contracted axis. The output window's block at point t is rows 2048 (t / 16)
  to 2048 (t / 16) + 2047 and columns 1024 (t / 4 mod 4) to 1024 (t / 4 mod 4) + 1023 of the output array, and it is
  written back only at the points whose step is the last one (t mod 4 = 3). Every entry (r, o) of the array lies in the
  block of exactly one such point, 16 (r / 2048) + 4 (o / 1024) + 3. So if at every last-step point the block the body
  leaves is that block of one function G of the array's index, the array ends holding G.
-/
import proofs.«132169_j81449759801528_2_alg».proof.Proof.MatFrame
import proofs.«132169_j81449759801528_2_alg».proof.Proof.Spec
import Idealize.ShloMosaic.Lib.Pipeline.Value

set_option maxRecDepth 16384

noncomputable section

namespace Cert.KernelIdeal.MatCover

open Cert.KernelIdeal Cert.KernelIdeal.Gen Idealize.ShloMosaic Idealize.ShloMosaic.TcCoe Idealize.SL.Sem
open Idealize.ShloMosaic.Pipeline (Dat)
open Idealize.ShloMosaic.ValueIdx

/-- The output window's block indices over the 64 points of the grid: the row block is t / 16, the column block is
    t / 4 mod 4. -/
theorem idx_facts1 : ∀ t : Fin cfg1.N, win1_2.index t (0 : Fin 2) = t.val / 16 ∧ win1_2.index t (1 : Fin 2) = t.val / 4 % 4 :=
  (by decide +kernel : ∀ t : Fin grid1.N, _)

/-- An index of the output array lies in point `t`'s block exactly when each coordinate lies in the block's range. -/
theorem mem_blk2 (t : Fin cfg1.N) (i : S8192x4096.Idx) :
    i ∈ ((cfg1.win 2).blk t).view.set ↔ ∀ a : Fin 2, win1_2.index t a * S2048x1024.size a ≤ (i a).val
      ∧ (i a).val < win1_2.index t a * S2048x1024.size a + S2048x1024.size a := by
  show i ∈ ((View.whole main_v2).slice (win1_2.rect t)).set ↔ _
  rw [View.set_slice_whole, Rect.mem_set_unit]
  exact Iff.rfl

/-- Every entry (r, o) of the output array lies in the block of the last-step point 16 (r / 2048) + 4 (o / 1024) + 3,
    which writes its block back. -/
theorem covered2 (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  have hN : cfg1.N = 64 := N_1
  have hlt : 16 * ((i 0).val / 2048) + 4 * ((i 1).val / 1024) + 3 < cfg1.N := by rw [hN]; omega
  obtain ⟨e0, e1⟩ := idx_facts1 ⟨16 * ((i 0).val / 2048) + 4 * ((i 1).val / 1024) + 3, hlt⟩
  refine ⟨⟨16 * ((i 0).val / 2048) + 4 * ((i 1).val / 1024) + 3, hlt⟩, (flush1_2 _).mpr ?_, ?_⟩
  · show (16 * ((i 0).val / 2048) + 4 * ((i 1).val / 1024) + 3) % 4 = 3
    omega
  · rw [mem_blk2]
    intro a
    match a with
    | ⟨0, _⟩ =>
      show win1_2.index _ (0 : Fin 2) * 2048 ≤ (i 0).val ∧ (i 0).val < win1_2.index _ (0 : Fin 2) * 2048 + 2048
      rw [e0]
      show (16 * ((i 0).val / 2048) + 4 * ((i 1).val / 1024) + 3) / 16 * 2048 ≤ (i 0).val
        ∧ (i 0).val < (16 * ((i 0).val / 2048) + 4 * ((i 1).val / 1024) + 3) / 16 * 2048 + 2048
      omega
    | ⟨1, _⟩ =>
      show win1_2.index _ (1 : Fin 2) * 1024 ≤ (i 1).val ∧ (i 1).val < win1_2.index _ (1 : Fin 2) * 1024 + 1024
      rw [e1]
      show (16 * ((i 0).val / 2048) + 4 * ((i 1).val / 1024) + 3) / 4 % 4 * 1024 ≤ (i 1).val
        ∧ (i 1).val < (16 * ((i 0).val / 2048) + 4 * ((i 1).val / 1024) + 3) / 4 % 4 * 1024 + 1024
      omega

variable (V : (c : Dev nD) → (b : Ref sig .tc) → Buf (Elt Ideal) ((c : Thread nD τ).loc b))

/-- What a point that writes back writes is its block of `G`, when the block the body leaves at every last-step point is:
    entry (p, q) of the block of point t is entry (2048 (t / 16) + p, 1024 (t / 4 mod 4) + q) of the array. -/
theorem flushed2_eq (c : Dev nD) (G : Cert.QuantLinear.SR.Idx → EReal)
    (hlast : ∀ (t : Fin cfg1.N), t.val % 4 = 3 → ∀ (p : Fin 2048) (q : Fin 1024),
        (Mat.dat1 V c).after 2 t (ix2 p q) = G (ix2 (n0 := 8192) (n1 := 4096) ⟨2048 * (t.val / 16) + p.val, by have := t.isLt; have : cfg1.N = 64 := N_1; omega⟩ ⟨1024 * (t.val / 4 % 4) + q.val, by omega⟩))
    (t : Fin cfg1.N) (hf : (cfg1.win 2).flush t = true) :
    (Mat.dat1 V c).flushed 2 t = ((cfg1.win 2).blk t).view.read (Elt Ideal) G := by
  have h3 : t.val % 4 = 3 := (flush1_2 t).mp hf
  obtain ⟨e0, e1⟩ := idx_facts1 t
  show (cfg1.win 2).cut (grid1.coords t) ((Mat.dat1 V c).after 2 t) = _
  funext j
  show (Mat.dat1 V c).after 2 t j = G (((cfg1.win 2).blk t).view.emb j)
  have h := hlast t h3 (j 0) (j 1)
  have hj : j = ix2 (n0 := 2048) (n1 := 1024) (j 0) (j 1) := eq_ix2 (n0 := 2048) (n1 := 1024) j
  refine (congrArg ((Mat.dat1 V c).after 2 t) hj).trans (h.trans (congrArg G (funext fun a => Fin.ext ?_)))
  match a with
  | ⟨0, _⟩ =>
    show 2048 * (t.val / 16) + (j 0).val = win1_2.index t (0 : Fin 2) * 2048 + 1 * (j 0).val
    rw [e0]; omega
  | ⟨1, _⟩ =>
    show 1024 * (t.val / 4 % 4) + (j 1).val = win1_2.index t (1 : Fin 2) * 1024 + 1 * (j 1).val
    rw [e1]; omega

/-- After the region the output array is `G`, when the block left at every last-step point is that point's block of `G`. -/
theorem final1_of (c : Dev nD) (G : Cert.QuantLinear.SR.Idx → EReal)
    (hlast : ∀ (t : Fin cfg1.N), t.val % 4 = 3 → ∀ (p : Fin 2048) (q : Fin 1024),
        (Mat.dat1 V c).after 2 t (ix2 p q) = G (ix2 (n0 := 8192) (n1 := 4096) ⟨2048 * (t.val / 16) + p.val, by have := t.isLt; have : cfg1.N = 64 := N_1; omega⟩ ⟨1024 * (t.val / 4 % 4) + q.val, by omega⟩)) :
    (Mat.dat1 V c).arrAt 2 cfg1.N = G :=
  (Mat.dat1 V c).arrAt_eq_of_cover 2 G (flushed2_eq V c G hlast) covered2

end Cert.KernelIdeal.MatCover

end
-- ==== Proof.MatPieces.lean ====
/-
  What the matrix-product kernel's body leaves, case by case, as one formula.

  In each of its three cases the body stores whole blocks through rectangles that start at zero and span the buffer, so a
  buffer read back after the body holds the last value stored into it, and a load of a whole buffer reads its
  contents. At a first block the scratch is zeroed, read back, and left at zero plus the product of the two input
  blocks; at a middle or last block it is left at what it held plus that product; at a last block the output block
  receives what the scratch was just left with.
-/
import proofs.«132169_j81449759801528_2_alg».proof.Proof.MatFrame
import Idealize.ShloMosaic.Lib.Pipeline.Value
import Idealize.ShloMosaic.Lib.Tactic

set_option maxRecDepth 16384

noncomputable section

namespace Cert.KernelIdeal.MatPieces

open Cert.KernelIdeal Cert.KernelIdeal.Gen
open Idealize.ShloMosaic Idealize.ShloMosaic.TcCoe Idealize.ShloMosaic.Tactic
open Idealize.SL.Sem

variable {F : FTy → Type} [FloatOps F]

/-- The offsets of a whole block: zero on both axes. -/
theorem hz : (![0, 0] : Fin 2 → Nat) = fun _ => 0 := funext fun a => by fin_cases a <;> rfl

/-- First block: the scratch is zeroed, read back, and left at zero plus the product of the two input blocks. -/
theorem sout_A (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : Mat.cond1_0 i) (hc1 : ¬Mat.cond1_1 i)
    (x0 : Vec F S2048x1024 .f32) (x1 : Vec F S1024x1024 .bf16) :
    Mat.sout1_A c i arg3 harg3 arg4 harg4 arg5 harg5 arg6 harg6 hc0 hc1 x0 x1 = k1_pay2 x0 x1 k1_pay1 := by
  unfold Mat.sout1_A
  rw [View.read_writes_eq_canon _ _ _ (Mat.scover1_A c i arg3 harg3 arg4 harg4 arg5 harg5 arg6 harg6 hc0 hc1 x0 x1)]
  unfold Mat.kernelRun1_A
  dsimp only
  sl_unfold_words
  rw [View.canon_cons_unit_zero (S := S2048x1024) hz, View.readCov_unit_zero (S := S2048x1024) _ hz]
  simp only [View.readAt_eq_ld, harg3.read_unread, harg4.read_unread, View.ld_unit_zero (S := S2048x1024) hz,
    View.ld_unit_zero (S := S1024x1024) hz]

/-- A middle block: the scratch is left at what it held plus the product of the two input blocks. -/
theorem sout_B (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬Mat.cond1_0 i) (hc1 : ¬Mat.cond1_1 i)
    (x0 : Vec F S2048x1024 .f32) (x1 : Vec F S1024x1024 .bf16) (xs0 : Vec F S2048x1024 .f32) :
    Mat.sout1_B c i arg3 harg3 arg4 harg4 arg5 harg5 arg6 harg6 hc0 hc1 x0 x1 xs0 = k1_pay2 x0 x1 xs0 := by
  unfold Mat.sout1_B
  rw [View.read_writes_eq_canon _ _ _ (Mat.scover1_B c i arg3 harg3 arg4 harg4 arg5 harg5 arg6 harg6 hc0 hc1 x0 x1 xs0)]
  unfold Mat.kernelRun1_B
  dsimp only
  sl_unfold_words
  rw [View.canon_unit_zero (S := S2048x1024) hz]
  simp only [View.readAt_eq_ld, harg3.read_unread, harg4.read_unread, harg6.read_unread,
    View.ld_unit_zero (S := S2048x1024) hz, View.ld_unit_zero (S := S1024x1024) hz]

/-- The last block: the scratch likewise, -/
theorem sout_C (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬Mat.cond1_0 i) (hc1 : Mat.cond1_1 i)
    (x0 : Vec F S2048x1024 .f32) (x1 : Vec F S1024x1024 .bf16) (xs0 : Vec F S2048x1024 .f32) :
    Mat.sout1_C c i arg3 harg3 arg4 harg4 arg5 harg5 arg6 harg6 hc0 hc1 x0 x1 xs0 = k1_pay2 x0 x1 xs0 := by
  unfold Mat.sout1_C
  rw [View.read_writes_eq_canon _ _ _ (Mat.scover1_C c i arg3 harg3 arg4 harg4 arg5 harg5 arg6 harg6 hc0 hc1 x0 x1 xs0)]
  unfold Mat.kernelRun1_C
  dsimp only
  sl_unfold_words
  rw [View.canon_unit_zero (S := S2048x1024) hz]
  simp only [View.readAt_eq_ld, harg3.read_unread, harg4.read_unread, harg6.read_unread,
    View.ld_unit_zero (S := S2048x1024) hz, View.ld_unit_zero (S := S1024x1024) hz]

/-- and the output block receives what the scratch was just left with. -/
theorem out_C (c : Dev nD) (i : grid1.Coords) (arg3 : Memref sig .tc .vmem S2048x1024 .f32) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .f32) (harg6 : arg6.IsWhole) (hc0 : ¬Mat.cond1_0 i) (hc1 : Mat.cond1_1 i)
    (x0 : Vec F S2048x1024 .f32) (x1 : Vec F S1024x1024 .bf16) (xs0 : Vec F S2048x1024 .f32) :
    Mat.out1_C c i arg3 harg3 arg4 harg4 arg5 harg5 arg6 harg6 hc0 hc1 x0 x1 xs0 = k1_pay2 x0 x1 xs0 := by
  unfold Mat.out1_C
  rw [View.read_writes_eq_canon _ _ _ (Mat.cover1_C c i arg3 harg3 arg4 harg4 arg5 harg5 arg6 harg6 hc0 hc1 x0 x1 xs0)]
  unfold Mat.kernelRun1_C
  dsimp only
  sl_unfold_words
  rw [View.canon_unit_zero (S := S2048x1024) hz, View.readCov_unit_zero (S := S2048x1024) _ hz]
  simp only [View.readAt_eq_ld, harg3.read_unread, harg4.read_unread, harg6.read_unread,
    View.ld_unit_zero (S := S2048x1024) hz, View.ld_unit_zero (S := S1024x1024) hz]

/-! ## The accumulation, one formula per point -/

variable (V : (c : Dev nD) → (b : Ref sig .tc) → Buf (Elt F) ((c : Thread nD τ).loc b))

/-- After a first block the scratch holds zero plus the product of that point's two input blocks. -/
theorem scratch_first (c : Dev nD) (t : Fin cfg1.N) (h0 : t.val % 4 = 0) :
    (Mat.outsAt1 V c t.val t.isLt).2 = k1_pay2 (Mat.iblk1 V c 0 t) (Mat.iblk1 V c 1 t) k1_pay1 := by
  have h1 : ¬t.val % 4 = 3 := by omega
  rw [Mat.outsAt1_A V c t h0 h1]
  dsimp only
  exact sout_A c (grid1.coords t) (Mat.ms1_0 t) (Mat.hs1_0 t) (Mat.ms1_1 t) (Mat.hs1_1 t) (Mat.ms1_2 t) (Mat.hs1_2 t) Mat.scM1_0 (Memref.isWhole_whole _) ((Mat.hcond1_0 t).mpr h0) (fun h => h1 ((Mat.hcond1_1 t).mp h)) (Mat.iblk1 V c 0 t) (Mat.iblk1 V c 1 t)

/-- After any other point it holds what the point before left plus the product of this point's two input blocks. -/
theorem scratch_next (c : Dev nD) (t : Fin cfg1.N) (h0 : ¬t.val % 4 = 0) :
    (Mat.outsAt1 V c t.val t.isLt).2
      = k1_pay2 (Mat.iblk1 V c 0 t) (Mat.iblk1 V c 1 t) (Mat.outsAt1 V c (t.val - 1) (Nat.lt_of_le_of_lt (Nat.sub_le _ _) t.isLt)).2 := by
  by_cases h1 : t.val % 4 = 3
  · rw [Mat.outsAt1_C V c t h0 h1]
    dsimp only
    exact sout_C c (grid1.coords t) (Mat.ms1_0 t) (Mat.hs1_0 t) (Mat.ms1_1 t) (Mat.hs1_1 t) (Mat.ms1_2 t) (Mat.hs1_2 t) Mat.scM1_0 (Memref.isWhole_whole _) (fun h => h0 ((Mat.hcond1_0 t).mp h)) ((Mat.hcond1_1 t).mpr h1) (Mat.iblk1 V c 0 t) (Mat.iblk1 V c 1 t) (Mat.outsAt1 V c (t.val - 1) (Nat.lt_of_le_of_lt (Nat.sub_le _ _) t.isLt)).2
  · rw [Mat.outsAt1_B V c t h0 h1]
    dsimp only
    exact sout_B c (grid1.coords t) (Mat.ms1_0 t) (Mat.hs1_0 t) (Mat.ms1_1 t) (Mat.hs1_1 t) (Mat.ms1_2 t) (Mat.hs1_2 t) Mat.scM1_0 (Memref.isWhole_whole _) (fun h => h0 ((Mat.hcond1_0 t).mp h)) (fun h => h1 ((Mat.hcond1_1 t).mp h)) (Mat.iblk1 V c 0 t) (Mat.iblk1 V c 1 t) (Mat.outsAt1 V c (t.val - 1) (Nat.lt_of_le_of_lt (Nat.sub_le _ _) t.isLt)).2

/-- At a last block the output block is what the scratch holds after the point. -/
theorem out_last (c : Dev nD) (t : Fin cfg1.N) (h1 : t.val % 4 = 3) :
    (Mat.outsAt1 V c t.val t.isLt).1 = (Mat.outsAt1 V c t.val t.isLt).2 := by
  have h0 : ¬t.val % 4 = 0 := by omega
  rw [Mat.outsAt1_C V c t h0 h1]
  dsimp only
  exact (out_C c (grid1.coords t) (Mat.ms1_0 t) (Mat.hs1_0 t) (Mat.ms1_1 t) (Mat.hs1_1 t) (Mat.ms1_2 t) (Mat.hs1_2 t) Mat.scM1_0 (Memref.isWhole_whole _) (fun h => h0 ((Mat.hcond1_0 t).mp h)) ((Mat.hcond1_1 t).mpr h1) (Mat.iblk1 V c 0 t) (Mat.iblk1 V c 1 t) (Mat.outsAt1 V c (t.val - 1) (Nat.lt_of_le_of_lt (Nat.sub_le _ _) t.isLt)).2).trans
    (sout_C c (grid1.coords t) (Mat.ms1_0 t) (Mat.hs1_0 t) (Mat.ms1_1 t) (Mat.hs1_1 t) (Mat.ms1_2 t) (Mat.hs1_2 t) Mat.scM1_0 (Memref.isWhole_whole _) (fun h => h0 ((Mat.hcond1_0 t).mp h)) ((Mat.hcond1_1 t).mpr h1) (Mat.iblk1 V c 0 t) (Mat.iblk1 V c 1 t) (Mat.outsAt1 V c (t.val - 1) (Nat.lt_of_le_of_lt (Nat.sub_le _ _) t.isLt)).2).symm

end Cert.KernelIdeal.MatPieces

end
-- ==== Proof.LibDotNT.lean ====
/-
  The dimension numbers of a matrix product with the right operand transposed — both operands contracted on their last axis,
  no batch axes — read at an index. At result position (i, q) and contraction position k the left operand is read at (i, k) and the
  right at (q, k); the contraction shape has one axis of the shared extent, so the sum over it is the ordinary sum over k of
  l(i, k) · r(q, k): a row of the left against a row of the right. A matrix unit product of that form, at the ideal instance, reads as
  its accumulator plus that sum, whatever the extents.
-/
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

variable {M K N : Nat} (d : DotDims ⟨2, ![M, K]⟩ ⟨2, ![N, K]⟩ ⟨2, ![M, N]⟩)

/-- The dimension numbers: [1] × [1] contracted, [0] and [0] kept, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

theorem rank_one (h : IsNT d) : d.contr.rank = 1 := by rw [d.rank_contr, h.lc]; rfl

theorem size_zero (h : IsNT d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsNT d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsNT d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsNT d) (j : (⟨2, ![M, N]⟩ : Shape).Idx) (k : d.contr.Idx) :
    (d.lhsIdx j k 1).val = (pos h k).val := by
  rw [d.lhsIdx_val_of_single h.lc j k]; rfl

theorem rhsIdx_row (h : IsNT d) (j : (⟨2, ![M, N]⟩ : Shape).Idx) (k : d.contr.Idx) :
    (d.rhsIdx j k 0).val = (j 1).val := by
  have hb : (0 : Fin 2) ∉ d.rhsBatch := by rw [h.rb]; exact List.not_mem_nil
  have hn : (0 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem rhsIdx_col (h : IsNT d) (j : (⟨2, ![M, N]⟩ : Shape).Idx) (k : d.contr.Idx) :
    (d.rhsIdx j k 1).val = (pos h k).val := by
  rw [d.rhsIdx_val_of_single h.rc j k]; rfl

theorem lhsIdx_eq (h : IsNT d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsNT d) (j : (⟨2, ![M, N]⟩ : Shape).Idx) (k : d.contr.Idx) :
    d.rhsIdx j k = ix2 (j 1) (pos h k) := by
  funext a; apply Fin.ext
  match a with
  | ⟨0, _⟩ => exact rhsIdx_row h j k
  | ⟨1, _⟩ => exact rhsIdx_col h j k

/-- THE CONTRACTION SUM: the sum over k below the shared extent of l(i, k) · r(q, k). -/
theorem sum_eq (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 (j 1) k) := by
  rw [← Equiv.sum_comp (pos h) (fun k : Fin K => l (ix2 (j 0) k) * r (ix2 (j 1) k))]
  exact Finset.sum_congr rfl fun k _ => by rw [lhsIdx_eq h j k, rhsIdx_eq h j k]; rfl

/-- A matrix unit product of that form into any accumulator, at the ideal instance and at an index. -/
theorem matmul_apply (h : IsNT d) (prec : Option ContractPrecision) {φ₁ φ₂ : FTy}
    (l : FVec Ideal ⟨2, ![M, K]⟩ φ₁) (r : FVec Ideal ⟨2, ![N, K]⟩ φ₂) (acc : FVec Ideal ⟨2, ![M, N]⟩ .f32) (j : (⟨2, ![M, N]⟩ : Shape).Idx) :
    matmul d prec l r acc j = acc j + ∑ k : Fin K, l (ix2 (j 0) k) * r (ix2 (j 1) k) :=
  (Ideal.matmul_apply d prec l r acc j).trans (congrArg (acc j + ·) (sum_eq h l r j))

/-- Into a zero accumulator: just the sum. -/
theorem matmul_zero_apply (h : IsNT d) (prec : Option ContractPrecision) {φ₁ φ₂ : FTy}
    (l : FVec Ideal ⟨2, ![M, K]⟩ φ₁) (r : FVec Ideal ⟨2, ![N, K]⟩ φ₂) (j : (⟨2, ![M, N]⟩ : Shape).Idx) :
    matmul d prec l r (constant (F := Ideal) ⟨2, ![M, N]⟩ .f32 0x00000000#32) j = ∑ k : Fin K, l (ix2 (j 0) k) * r (ix2 (j 1) k) :=
  (Ideal.matmul_constant_zero_apply d prec l r j).trans (sum_eq h l r j)

end Idealize.ShloMosaic.DotNT

end
-- ==== Proof.MatPayload.lean ====
/-
  The matrix-product kernel's two stored values, read at an index.

  The kernel keeps a running block of 2048 x 1024 partial results. At the first step of the contraction it stores the zero
  block. At every step it adds to the running block the product of a 2048 x 1024 block of the left operand with a
  1024 x 1024 block of the right operand, both contracted on their last axis and started from zero: entry (r, o) gains
  the sum over k below 1024 of left(r, k) * right(o, k). Narrowing the left block's float format changes nothing on the
  extended reals, and the casts of a shape to itself are the identity.
-/
import proofs.«132169_j81449759801528_2_alg».proof.Proof.Gen.KernelIdeal.Skeleton
import proofs.«132169_j81449759801528_2_alg».proof.Proof.LibDotNT
import Idealize.ShloMosaic.Lib.Pipeline.Value
import Idealize.ShloMosaic.Lib.ValueIdx
import Idealize.ShloMosaic.PureOps.Ideal.Laws

noncomputable section

open scoped BigOperators

namespace Cert.KernelIdeal.MatPayload

open Cert.KernelIdeal Cert.KernelIdeal.Gen Idealize.ShloMosaic Idealize.ShloMosaic.ValueIdx

/-- The block stored at the first step of the contraction is zero everywhere. -/
theorem pay1_apply (j : S2048x1024.Idx) : k1_pay1 (F := Ideal) j = 0 := by
  unfold k1_pay1
  rw [shapeCast_self]
  exact Ideal.ofBits_zero_f32

/-- The product's dimension numbers: both operands contracted on their last axis, rows kept, no batch axes. -/
theorem isNT : Idealize.ShloMosaic.DotNT.IsNT dot_S2048x1024_S1024x1024_S2048x1024_1_1_0_0_n_n :=
  ⟨rfl, rfl, rfl, rfl, rfl, rfl⟩

/-- The block stored at every step: the running block plus, at (r, o), the sum over k of left(r, k) * right(o, k). -/
theorem pay2_apply (v3 : Vec Ideal S2048x1024 .f32) (v6 : Vec Ideal S1024x1024 .bf16) (v8 : Vec Ideal S2048x1024 .f32)
    (j : S2048x1024.Idx) :
    k1_pay2 (F := Ideal) v3 v6 v8 j
      = v8 j + ∑ k : Fin 1024, v3 (ix2 (n0 := 2048) (n1 := 1024) (j 0) k) * v6 (ix2 (n0 := 1024) (n1 := 1024) (j 1) k) := by
  unfold k1_pay2
  rw [shapeCast_self, shapeCast_self, shapeCast_self, addf_apply]
  refine congrArg (v8 j + ·) ?_
  exact Idealize.ShloMosaic.DotNT.matmul_zero_apply isNT none _ v6 j

end Cert.KernelIdeal.MatPayload

end
-- ==== Proof.LibRunningSum.lean ====
/-
  A sum accumulated one term at a time from a starting value — z + f 0, then + f 1, and so on — is the starting value
  plus the plain sum of the terms: addition in a commutative monoid is associative, so the order of accumulation does
  not matter. Stated for terms indexed by the naturals, and with the plain sum taken over Fin (n + 1).
-/
import Mathlib.Algebra.BigOperators.Fin

namespace Idealize.ShloMosaic.RunningSum

variable {M : Type*} [AddCommMonoid M]

/-- The accumulated sum after term n: z + f 0 at n = 0, and the previous value plus f (n + 1) after that. -/
def runningSum (z : M) (f : ℕ → M) : ℕ → M
  | 0 => z + f 0
  | n + 1 => runningSum z f n + f (n + 1)

theorem runningSum_zero (z : M) (f : ℕ → M) : runningSum z f 0 = z + f 0 := rfl

theorem runningSum_succ (z : M) (f : ℕ → M) (n : ℕ) : runningSum z f (n + 1) = runningSum z f n + f (n + 1) := rfl

/-- It is the starting value plus the sum of the terms up to n. -/
theorem runningSum_eq_range (z : M) (f : ℕ → M) (n : ℕ) :
    runningSum z f n = z + ∑ k ∈ Finset.range (n + 1), f k := by
  induction n with
  | zero => rw [runningSum_zero, Finset.sum_range_one]
  | succ n ih => rw [runningSum_succ, ih, Finset.sum_range_succ _ (n + 1), add_assoc]

/-- The same with the terms indexed by Fin (n + 1). -/
theorem runningSum_eq_sum (z : M) (f : ℕ → M) (n : ℕ) :
    runningSum z f n = z + ∑ k : Fin (n + 1), f k.val := by
  rw [runningSum_eq_range, Finset.sum_range]

end Idealize.ShloMosaic.RunningSum
-- ==== Proof.LibSumReshape.lean ====
/-
  Sums over index sets of arrays, re-indexed.

  A reshape keeps the elements and their row-major order, so it is a bijection of index sets and a sum over the
  reshaped array is the sum over the original (`sum_reshapeEquiv`, `sum_shapeCast`). A rank-1 index set is its one
  coordinate range (`sum_idx1`). A rank-2 array of `m * n` rows cut into `m` consecutive blocks of `n` rows: the sum
  over the array is the sum over the blocks of each block's sum, the element `(r, l)` of block `t` being the
  array's `(n * t + r, l)` (`blockIdx`, `sum_rowBlocks`).
-/
import Idealize.ShloMosaic.Lib.ValueIdx

noncomputable section

open scoped BigOperators

namespace Idealize.ShloMosaic.SumReshape

open Idealize.ShloMosaic Idealize.ShloMosaic.ValueIdx

variable {M : Type*} [AddCommMonoid M]

/-- A sum read through the reshape bijection is the sum itself. -/
theorem sum_reshapeEquiv {s t : Shape} (h : t.numel = s.numel) (f : s.Idx → M) :
    ∑ j : t.Idx, f (Shape.reshapeEquiv h j) = ∑ i : s.Idx, f i :=
  Equiv.sum_comp (Shape.reshapeEquiv h) f

/-- The sum of the elements of a shape cast is the sum of the elements. -/
theorem sum_shapeCast_self {N : Type} [AddCommMonoid N] {s t : Shape} (x : s.Idx → N) (h : s.ShapeCasts t) :
    ∑ j : t.Idx, shapeCast t x h j = ∑ i : s.Idx, x i :=
  sum_reshapeEquiv h x

/-- The sum of a function of the elements of a shape cast is the sum of that function of the elements. -/
theorem sum_shapeCast {s t : Shape} {α : Type} (x : s.Idx → α) (h : s.ShapeCasts t) (g : α → M) :
    ∑ j : t.Idx, g (shapeCast t x h j) = ∑ i : s.Idx, g (x i) :=
  sum_reshapeEquiv h fun i => g (x i)

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → M) : ∑ i, f i = ∑ a : Fin n, f (ix1 a) :=
  (Equiv.sum_comp (idxEquiv1 (n := n)).symm f).symm

/-- Row `r` of block `t`, of `n` rows each, is row `n * t + r`. -/
def blockRow {m n : Nat} (t : Fin m) (r : Fin n) : Fin (m * n) :=
  ⟨n * t.val + r.val, by
    have h1 := t.isLt; have h2 := r.isLt
    calc n * t.val + r.val < n * t.val + n := by omega
      _ = n * (t.val + 1) := by ring
      _ ≤ n * m := Nat.mul_le_mul_left _ h1
      _ = m * n := Nat.mul_comm _ _⟩

theorem blockRow_val {m n : Nat} (t : Fin m) (r : Fin n) : (blockRow t r).val = n * t.val + r.val := rfl

/-- The rows of `m` consecutive blocks of `n` rows are all the `m * n` rows, each once. -/
theorem sum_blockRow {m n : Nat} (f : Fin (m * n) → M) : ∑ a, f a = ∑ t : Fin m, ∑ r : Fin n, f (blockRow t r) := by
  rw [← Fintype.sum_prod_type', ← Equiv.sum_comp finProdFinEquiv f]
  refine Finset.sum_congr rfl fun p _ => congrArg f (Fin.ext ?_)
  show p.2.val + n * p.1.val = n * p.1.val + p.2.val
  omega

/-- Entry `y` of block `t`, in the array of `N = m * n` rows: row `n * t + y₀`, column `y₁`. -/
def blockIdx {N k : Nat} (m n : Nat) (hN : N = m * n) (t : Fin m) (y : (⟨2, ![n, k]⟩ : Shape).Idx) :
    (⟨2, ![N, k]⟩ : Shape).Idx :=
  ix2 ⟨n * t.val + (y 0).val, by subst hN; exact (blockRow t ⟨(y 0).val, idx2_lt0 y⟩).isLt⟩ ⟨(y 1).val, idx2_lt1 y⟩

theorem blockIdx_row {N k : Nat} (m n : Nat) (hN : N = m * n) (t : Fin m) (y : (⟨2, ![n, k]⟩ : Shape).Idx) :
    (blockIdx m n hN t y 0).val = n * t.val + (y 0).val := rfl

theorem blockIdx_col {N k : Nat} (m n : Nat) (hN : N = m * n) (t : Fin m) (y : (⟨2, ![n, k]⟩ : Shape).Idx) :
    (blockIdx m n hN t y 1).val = (y 1).val := rfl

/-- A sum over an array of `N = m * n` rows is the sum over its `m` row blocks of the blocks' sums. -/
theorem sum_rowBlocks {N k : Nat} (m n : Nat) (hN : N = m * n) (f : (⟨2, ![N, k]⟩ : Shape).Idx → M) :
    ∑ i, f i = ∑ t : Fin m, ∑ y : (⟨2, ![n, k]⟩ : Shape).Idx, f (blockIdx m n hN t y) := by
  subst hN
  rw [sum_idx2, sum_blockRow]
  refine Finset.sum_congr rfl fun t _ => ?_
  rw [sum_idx2]
  rfl

end Idealize.ShloMosaic.SumReshape

end
-- ==== Proof.Reshapes.lean ====
/-
  Two rearrangements of the activations, and a sum over columns cut into blocks.

  The activations [4, 2048, 4096] read as a matrix [8192, 4096] keep their row-major order: matrix row r is the
  activations' row (r / 2048, r % 2048), which is the specification's `rows`. In the other direction, entry
  (b, s, o) of a matrix [8192, 4096] read as [4, 2048, 4096] is the matrix entry (b * 2048 + s, o).

  A sum over 4096 columns is the sum of the four sums over columns 1024 n, ..., 1024 n + 1023 for n = 0, 1, 2, 3;
  accumulated from zero one block at a time it is still the same sum, addition being associative and commutative.
-/
import proofs.«132169_j81449759801528_2_alg».proof.Proof.Spec
import proofs.«132169_j81449759801528_2_alg».proof.Proof.LibRunningSum
import proofs.«132169_j81449759801528_2_alg».proof.Proof.LibSumReshape
import Idealize.ShloMosaic.Lib.Pipeline.Value
import Idealize.ShloMosaic.Lib.ValueIdx

noncomputable section

open scoped BigOperators

namespace Cert.QuantLinear

open Idealize.ShloMosaic Idealize.ShloMosaic.ValueIdx

/-- The activations read as a matrix of 4 * 2048 rows are the specification's `rows`. -/
theorem rows_eq (x : SX.Idx → EReal) (h : SX.ShapeCasts SR) : shapeCast SR x h = rows x := by
  funext j
  have hj0 : (j 0).val < 8192 := (j 0).isLt
  unfold rows
  refine shapeCast_apply x h j _ ?_
  rewrite [Shape.rowMajor_val_three, Shape.rowMajor_val_two]
  show ((j 0).val / 2048 * 2048 + (j 0).val % 2048) * 4096 + (j 1).val = (j 0).val * 4096 + (j 1).val
  omega

/-- A matrix of 4 * 2048 rows read as [4, 2048, 4096]: entry (b, s, o) is the matrix entry (b * 2048 + s, o). -/
theorem unrows_apply (y : SR.Idx → EReal) (h : SR.ShapeCasts SX) (i : SX.Idx) (j : SR.Idx)
    (h0 : (j 0).val = (i 0).val * 2048 + (i 1).val) (h1 : (j 1).val = (i 2).val) :
    shapeCast SX y h i = y j := by
  refine shapeCast_apply y h i j ?_
  rewrite [Shape.rowMajor_val_two, Shape.rowMajor_val_three]
  show (j 0).val * 4096 + (j 1).val = ((i 0).val * 2048 + (i 1).val) * 4096 + (i 2).val
  rw [h0, h1]

/-- The sum over 4096 columns, accumulated from zero over four consecutive blocks of 1024 columns. -/
theorem sum_four_blocks (f : Fin 4096 → EReal) :
    Idealize.ShloMosaic.RunningSum.runningSum (0 : EReal)
      (fun n => ∑ r : Fin 1024, if h : n < 4 then f ⟨1024 * n + r.val, by omega⟩ else 0) 3
      = ∑ k : Fin 4096, f k := by
  have e : ∑ k : Fin 4096, f k
      = ∑ t : Fin 4, ∑ r : Fin 1024, f (Idealize.ShloMosaic.SumReshape.blockRow (m := 4) (n := 1024) t r) :=
    Idealize.ShloMosaic.SumReshape.sum_blockRow (m := 4) (n := 1024) f
  rw [Idealize.ShloMosaic.RunningSum.runningSum_eq_sum, zero_add, e]
  refine Finset.sum_congr rfl fun t _ => Finset.sum_congr rfl fun r _ => ?_
  rw [dif_pos t.isLt]
  rfl

end Cert.QuantLinear

end
-- ==== Proof.MatValue.lean ====
/-
  The matrix-product kernel at its last block: the output block holds the product.

  The kernel walks 4 x 4 x 4 points t = 16 i + 4 j + k, k fastest. Point t reads the 2048 x 1024 block (i, k) of the left
  matrix l and the 1024 x 1024 block (j, k) of the right matrix w, and adds to a scratch block, at entry (p, q), the sum
  over the 1024 columns of column block k of l(2048 i + p, ·) * w(1024 j + q, ·); at k = 0 the scratch starts from zero.
  So after point t the scratch holds at (p, q) the sum over column blocks 0, ..., k, accumulated one block at a time: by
  induction on the point, since the point before a point with k > 0 has the same i and j. At k = 3 the four column
  blocks are all 4096 columns, the accumulated sum is the plain sum over all columns, and the output block, which
  receives the scratch there, holds the product's entry (2048 i + p, 1024 j + q).
-/
import proofs.«132169_j81449759801528_2_alg».proof.Proof.MatPieces
import proofs.«132169_j81449759801528_2_alg».proof.Proof.MatPayload
import proofs.«132169_j81449759801528_2_alg».proof.Proof.Spec
import proofs.«132169_j81449759801528_2_alg».proof.Proof.Reshapes
import proofs.«132169_j81449759801528_2_alg».proof.Proof.LibRunningSum
import Idealize.ShloMosaic.Lib.Pipeline.Value
import Idealize.ShloMosaic.Lib.ValueIdx

set_option maxRecDepth 16384

noncomputable section

open scoped BigOperators

namespace Cert.KernelIdeal.MatValue

open Cert.KernelIdeal Cert.KernelIdeal.Gen
open Idealize.ShloMosaic Idealize.ShloMosaic.TcCoe Idealize.ShloMosaic.ValueIdx
open Idealize.SL.Sem
open Idealize.ShloMosaic.Pipeline (Dat)

open Idealize.ShloMosaic.RunningSum Cert.QuantLinear

variable (V : (c : Dev nD) → (b : Ref sig .tc) → Buf (Elt Ideal) ((c : Thread nD τ).loc b))

/-! ## The index maps, decided once over the grid -/

/-- With the last grid coordinate fastest, point t = 16 i + 4 j + k reads block (i, k) of the left matrix and block
    (j, k) of the right one, and its output block is (i, j). -/
theorem idx_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 16 ∧ win1_2.index t (1 : Fin 2) = t.val / 4 % 4 :=
  (by decide +kernel : ∀ t : Fin grid1.N, _)

theorem lt_N (t : Fin cfg1.N) : t.val < 64 := by have h := t.isLt; have e : cfg1.N = 64 := N_1; omega

/-! ## The input blocks, read off the two matrices -/

/-- Entry y of the left matrix's block at point t is the matrix's entry (2048 (t / 16) + y₀, 1024 (t % 4) + y₁). -/
theorem left_block (c : Dev nD) (t : Fin cfg1.N) (y : S2048x1024.Idx) (j : S8192x4096.Idx)
    (h0 : (j 0).val = 2048 * (t.val / 16) + (y 0).val) (h1 : (j 1).val = 1024 * (t.val % 4) + (y 1).val) :
    (Mat.iblk1 V c 0 t : Vec Ideal S2048x1024 .f32) y = V c main_v0 j := by
  obtain ⟨e0, e1, -⟩ := idx_facts t
  unfold Mat.iblk1
  rw [View.read_apply]
  show V c main_v0 _ = V c main_v0 j
  refine congrArg (V c main_v0) (funext fun a => Fin.ext ?_)
  match a with
  | ⟨0, _⟩ => show win1_0.index t (0 : Fin 2) * 2048 + 1 * (y 0).val = (j 0).val; omega
  | ⟨1, _⟩ => show win1_0.index t (1 : Fin 2) * 1024 + 1 * (y 1).val = (j 1).val; omega

/-- Entry y of the right matrix's block at point t is its entry (1024 (t / 4 % 4) + y₀, 1024 (t % 4) + y₁). -/
theorem right_block (c : Dev nD) (t : Fin cfg1.N) (y : S1024x1024.Idx) (j : S4096x4096.Idx)
    (h0 : (j 0).val = 1024 * (t.val / 4 % 4) + (y 0).val) (h1 : (j 1).val = 1024 * (t.val % 4) + (y 1).val) :
    (Mat.iblk1 V c 1 t : Vec Ideal S1024x1024 .bf16) y = V c main_v1 j := by
  obtain ⟨-, -, e2, e3, -⟩ := idx_facts t
  unfold Mat.iblk1
  rw [View.read_apply]
  show V c main_v1 _ = V c main_v1 j
  refine congrArg (V c main_v1) (funext fun a => Fin.ext ?_)
  match a with
  | ⟨0, _⟩ => show win1_1.index t (0 : Fin 2) * 1024 + 1 * (y 0).val = (j 0).val; omega
  | ⟨1, _⟩ => show win1_1.index t (1 : Fin 2) * 1024 + 1 * (y 1).val = (j 1).val; omega

/-! ## The running sum -/

/-- The product's term at column k: left(R, k) * right(O, k). -/
def colTerm (l : SR.Idx → EReal) (w : SW.Idx → EReal) (R : Fin 8192) (O : Fin 4096) (k : Fin 4096) : EReal :=
  l (ix2 (n0 := 8192) (n1 := 4096) R k) * w (ix2 (n0 := 4096) (n1 := 4096) O k)

/-- The sum of a function of the 4096 columns over the n-th block of 1024 columns (zero past the fourth block). -/
def blockTerm (f : Fin 4096 → EReal) (n : ℕ) : EReal :=
  ∑ r : Fin 1024, if h : n < 4 then f ⟨1024 * n + r.val, by omega⟩ else 0

/-- The row of the left matrix that row p of point n's block is, and the row of the right matrix for column q. -/
def rowOf (n : ℕ) (p : Fin 2048) : Fin 8192 := ⟨2048 * (n / 16 % 4) + p.val, by have := p.isLt; omega⟩
def colOf (n : ℕ) (q : Fin 1024) : Fin 4096 := ⟨1024 * (n / 4 % 4) + q.val, by have := q.isLt; omega⟩

/-- One step of the body at point t, at entry y: what the scratch held plus the current column block's sum. -/
theorem step_apply (c : Dev nD) (t : Fin cfg1.N) (xs : Vec Ideal S2048x1024 .f32) (y : S2048x1024.Idx) :
    k1_pay2 (F := Ideal) (Mat.iblk1 V c 0 t) (Mat.iblk1 V c 1 t) xs y
      = xs y + blockTerm (colTerm (V c main_v0) (V c main_v1) (rowOf t.val (y 0)) (colOf t.val (y 1))) (t.val % 4) := by
  have ht := lt_N t
  refine (MatPayload.pay2_apply (Mat.iblk1 V c 0 t) (Mat.iblk1 V c 1 t) xs y).trans ?_
  refine congrArg (xs y + ·) ?_
  unfold blockTerm
  refine Finset.sum_congr rfl fun k _ => ?_
  rw [dif_pos (Nat.mod_lt _ (by decide))]
  unfold colTerm
  have eL := left_block V c t (ix2 (n0 := 2048) (n1 := 1024) (y 0) k)
    (ix2 (n0 := 8192) (n1 := 4096) (rowOf t.val (y 0)) ⟨1024 * (t.val % 4) + k.val, by have := k.isLt; omega⟩)
    (by show 2048 * (t.val / 16 % 4) + (y 0).val = 2048 * (t.val / 16) + (y 0).val; omega) rfl
  have eR := right_block V c t (ix2 (n0 := 1024) (n1 := 1024) (y 1) k)
    (ix2 (n0 := 4096) (n1 := 4096) (colOf t.val (y 1)) ⟨1024 * (t.val % 4) + k.val, by have := k.isLt; omega⟩)
    rfl rfl
  rw [eL, eR]

/-- The running sum after point n at entry y: column blocks 0 to m of one row of the left matrix against one row of
    the right one, the rows being the ones entry y of point n's blocks sits in. -/
def partialSum (l : SR.Idx → EReal) (w : SW.Idx → EReal) (n : ℕ) (y : S2048x1024.Idx) (m : ℕ) : EReal :=
  runningSum 0 (blockTerm (colTerm l w (rowOf n (y 0)) (colOf n (y 1)))) m

/-- THE INVARIANT: after point n the scratch holds, entry by entry, the running sum over the column blocks walked so far
    (n % 4 of them after the first). By induction on the point: a first block starts the sum from zero, any other point
    adds its column block to what the point before left, and the point before walked the same rows. -/
theorem scratch_eq (c : Dev nD) : ∀ (n : ℕ) (hn : n < cfg1.N) (y : S2048x1024.Idx),
    (Mat.outsAt1 V c n hn).2 y = partialSum (V c main_v0) (V c main_v1) n y (n % 4) := by
  intro n
  induction n with
  | zero =>
    intro hn y
    refine (congrFun (MatPieces.scratch_first V c ⟨0, hn⟩ rfl) y).trans ?_
    refine (step_apply V c ⟨0, hn⟩ (k1_pay1 (F := Ideal)) y).trans ?_
    rw [MatPayload.pay1_apply]
    rfl
  | succ n ih =>
    intro hn y
    have hN := lt_N ⟨n + 1, hn⟩
    by_cases h0 : (n + 1) % 4 = 0
    · refine (congrFun (MatPieces.scratch_first V c ⟨n + 1, hn⟩ h0) y).trans ?_
      refine (step_apply V c ⟨n + 1, hn⟩ (k1_pay1 (F := Ideal)) y).trans ?_
      rw [MatPayload.pay1_apply]
      show 0 + blockTerm _ ((n + 1) % 4) = runningSum 0 _ ((n + 1) % 4)
      rw [h0]
      rfl
    · refine (congrFun (MatPieces.scratch_next V c ⟨n + 1, hn⟩ h0) y).trans ?_
      refine (step_apply V c ⟨n + 1, hn⟩ _ y).trans ?_
      have hn' : n < cfg1.N := Nat.lt_of_succ_lt hn
      show (Mat.outsAt1 V c n hn').2 y
            + blockTerm (colTerm (V c main_v0) (V c main_v1) (rowOf (n + 1) (y 0)) (colOf (n + 1) (y 1))) ((n + 1) % 4)
          = runningSum 0 (blockTerm (colTerm (V c main_v0) (V c main_v1) (rowOf (n + 1) (y 0)) (colOf (n + 1) (y 1))))
              ((n + 1) % 4)
      rw [ih hn' y]
      have hr : rowOf (n + 1) (y 0) = rowOf n (y 0) :=
        Fin.ext (by show 2048 * ((n + 1) / 16 % 4) + (y 0).val = 2048 * (n / 16 % 4) + (y 0).val; omega)
      have hc : colOf (n + 1) (y 1) = colOf n (y 1) :=
        Fin.ext (by show 1024 * ((n + 1) / 4 % 4) + (y 1).val = 1024 * (n / 4 % 4) + (y 1).val; omega)
      have hm : (n + 1) % 4 = n % 4 + 1 := by omega
      rw [hr, hc, hm]
      rfl

/-- AT A LAST BLOCK the output block holds, at (p, q), the whole product's entry: the four column blocks are all 4096
    columns. -/
theorem last_block (c : Dev nD) (t : Fin cfg1.N) (h3 : t.val % 4 = 3) (p : Fin 2048) (q : Fin 1024) :
    (Mat.dat1 V c).after 2 t (ix2 p q)
      = prod2 (V c main_v0) (V c main_v1) (ix2 (n0 := 8192) (n1 := 4096)
          ⟨2048 * (t.val / 16) + p.val, by have := lt_N t; have := p.isLt; omega⟩
          ⟨1024 * (t.val / 4 % 4) + q.val, by have := q.isLt; omega⟩) := by
  have ht := lt_N t
  rw [Mat.after1_2, MatPieces.out_last V c t h3]
  refine (scratch_eq V c t.val t.isLt (ix2 p q)).trans ?_
  rw [h3]
  refine (sum_four_blocks (colTerm (V c main_v0) (V c main_v1) (rowOf t.val p) (colOf t.val q))).trans ?_
  have hR : rowOf t.val p = ⟨2048 * (t.val / 16) + p.val, by have := p.isLt; omega⟩ :=
    Fin.ext (by show 2048 * (t.val / 16 % 4) + p.val = 2048 * (t.val / 16) + p.val; omega)
  rw [hR]
  rfl

end Cert.KernelIdeal.MatValue

end
-- ==== Proof.KValue.lean ====
/-
  What the kernel program's result buffer holds at the end, on the extended reals.

  Following the buffers from the launch: the first reshape makes the activations' matrix of 8192 rows; the dequantization
  region, which finds the codes, scales and offsets as launched, leaves the dequantized weight; the matrix-product region
  finds those two and leaves their row-against-row product; the last reshape reads entry (b * 2048 + s, o) of that product
  at (b, s, o). That is the layer's output of the launch contents.
-/
import proofs.«132169_j81449759801528_2_alg».proof.Proof.KRun
import proofs.«132169_j81449759801528_2_alg».proof.Proof.DeqValue
import proofs.«132169_j81449759801528_2_alg».proof.Proof.MatCover
import proofs.«132169_j81449759801528_2_alg».proof.Proof.MatValue
import proofs.«132169_j81449759801528_2_alg».proof.Proof.Spec
import proofs.«132169_j81449759801528_2_alg».proof.Proof.Reshapes
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Run Cert.QuantLinear Idealize.ShloMosaic.ValueIdx

variable (m : (ℓ : Loc nD τ sig) → Buf (Elt Ideal) ℓ) (ρ : Dev nD → PrngReg)

/-- The first reshape writes only the matrix view of the activations: the codes, scales and offsets reach the
    dequantization region as launched. -/
theorem entry_code (c : Dev nD) : V1 m ρ c main_arg1 = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))).trans rfl
theorem entry_scale (c : Dev nD) : V1 m ρ c main_arg2 = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))).trans rfl
theorem entry_offset (c : Dev nD) : V1 m ρ c main_arg3 = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))).trans rfl

/-- The left matrix the product region finds: the activations' rows (the first reshape's result, which the
    dequantization region does not touch). -/
theorem entry_rows (c : Dev nD) : (V2 m ρ c main_v0 : SR.Idx → EReal) = rows (m ((c : Thread nD τ).loc main_arg0)) := by
  have e1 : V2 m ρ c main_v0 = W1 m ρ c (Proc.devRef .tc main_v0) := W2_of_ne m ρ c main_v0 (by decide)
  have e2 : (W1 m ρ c (Proc.devRef .tc main_v0) : SR.Idx → EReal)
      = shapeCast SR (m ((c : Thread nD τ).loc main_arg0) : SX.Idx → EReal) shapeCasts_S4x2048x4096_S8192x4096 := by
    show StableHlo.after hostOps0 _ (Proc.devRef .tc main_v0) = _
    after_results
    rfl
  rw [e1, e2]
  exact rows_eq _ _

/-- The right matrix it finds: the dequantized weight, what the dequantization region left. -/
theorem entry_weight (c : Dev nD) : (V2 m ρ c main_v1 : SW.Idx → EReal)
    = wq (m ((c : Thread nD τ).loc main_arg1)) (m ((c : Thread nD τ).loc main_arg2)) (m ((c : Thread nD τ).loc main_arg3)) := by
  have e1 : V2 m ρ c main_v1 = (Deq.dat0 (V1 m ρ) c).arrAt 3 cfg0.N := W2_arr m ρ c 3
  rw [e1, Cert.KernelIdeal.DeqValue.final0 (V1 m ρ) c, entry_code, entry_scale, entry_offset]

/-- What the matrix-product region leaves in its output array: the row-against-row product of the two matrices it finds
    (each block of it is, at the last of its four column blocks, the running sum of the four partial products, and the
    blocks written back at those points cover the array). -/
theorem final1 (V : (c : Dev nD) → (b : Ref sig .tc) → Buf (Elt Ideal) ((c : Thread nD τ).loc b)) (c : Dev nD) :
    (Mat.dat1 V c).arrAt 2 cfg1.N = prod2 (V c main_v0) (V c main_v1) :=
  Cert.KernelIdeal.MatCover.final1_of V c _ (fun t h3 p q => Cert.KernelIdeal.MatValue.last_block V c t h3 p q)

/-- THE RESULT: the last boundary's contents of the result buffer are the layer's output of the launch contents. -/
theorem result_eq (c : Dev nD) : (W4 m ρ c (Proc.devRef .tc main_v3) : SX.Idx → EReal)
    = out (m ((c : Thread nD τ).loc main_arg0)) (m ((c : Thread nD τ).loc main_arg1)) (m ((c : Thread nD τ).loc main_arg2)) (m ((c : Thread nD τ).loc main_arg3)) := by
  have e1 : (W4 m ρ c (Proc.devRef .tc main_v3) : SX.Idx → EReal)
      = shapeCast SX (W3 m ρ c (Proc.devRef .tc main_v2) : SR.Idx → EReal) shapeCasts_S8192x4096_S4x2048x4096 := by
    show StableHlo.after hostOps2 _ (Proc.devRef .tc main_v3) = _
    after_results
    rfl
  have e2 : (W3 m ρ c (Proc.devRef .tc main_v2) : SR.Idx → EReal)
      = prod2 (rows (m ((c : Thread nD τ).loc main_arg0))) (wq (m ((c : Thread nD τ).loc main_arg1)) (m ((c : Thread nD τ).loc main_arg2)) (m ((c : Thread nD τ).loc main_arg3))) := by
    have e3 : W3 m ρ c (Proc.devRef .tc main_v2) = (Mat.dat1 (V2 m ρ) c).arrAt 2 cfg1.N := W3_arr m ρ c 2
    rw [e3, final1 (V2 m ρ) c, entry_rows, entry_weight]
  rw [e1, e2]
  funext i
  have hi0 : (i 0).val < 4 := (i 0).isLt
  have hi1 : (i 1).val < 2048 := (i 1).isLt
  rw [unrows_apply _ _ i (ix2 (n0 := 8192) (n1 := 4096) ⟨(i 0).val * 2048 + (i 1).val, by omega⟩ ⟨(i 2).val, (i 2).isLt⟩) rfl rfl]
  exact (out_eq_prod2 _ _ _ _ i _ rfl rfl).symm

end Cert.KernelIdeal.KValue

end
-- ==== Proof.RefValue.lean ====
/-
  The reference program computes the quantized linear layer of the specification.

  The reference converts the integer codes to reals, regroups the 4096 columns of each weight row as 32 groups of
  128, multiplies each group by its scale and subtracts its offset (the per-group parameters repeated along the 128
  columns of the group), flattens the groups back to 4096 columns, and contracts the activations' last axis with the
  weight's column axis. Read at an index, column k of row o lands in group k / 128 at position k % 128 and comes
  back to column k, so the weight entry is code(o, k) * scale(o, k / 128) - offset(o, k / 128), and the contraction is
  the specification's sum over k.
-/
import proofs.«132169_j81449759801528_2_alg».proof.Proof.Gen.ReferenceIdeal.Read
import proofs.«132169_j81449759801528_2_alg».proof.Proof.Spec

noncomputable section

open scoped BigOperators

namespace Cert.ReferenceIdeal.RefValue

open Cert.ReferenceIdeal Cert.ReferenceIdeal.Read Idealize.ShloMosaic Idealize.ShloMosaic.ValueIdx Cert.QuantLinear

/-- Splitting column k of row o into (group, position) and flattening again gives (o, k) back. -/
theorem regroup_flatten (j : S4096x4096.Idx) : idx_main_v1 (idx_main_v8 j) = j := by
  have h0 : (j 0).val < 4096 := (j 0).isLt
  have h1 : (j 1).val < 4096 := (j 1).isLt
  refine funext fun a => Fin.ext ?_
  match a with
  | ⟨0, _⟩ =>
    show (((((j 0).val * 4096 + (j 1).val) / 4096) * 32 + ((j 0).val * 4096 + (j 1).val) / 128 % 32) * 128
      + ((j 0).val * 4096 + (j 1).val) % 128) / 4096 = (j 0).val
    omega
  | ⟨1, _⟩ =>
    show (((((j 0).val * 4096 + (j 1).val) / 4096) * 32 + ((j 0).val * 4096 + (j 1).val) / 128 % 32) * 128
      + ((j 0).val * 4096 + (j 1).val) % 128) % 4096 = (j 1).val
    omega

/-- The scale that multiplies column k of row o is the one of row o and group k / 128. -/
theorem scale_index (j : S4096x4096.Idx) :
    idx_main_v2 (idx_main_v3 (idx_main_v8 j)) = ix2 (n0 := 4096) (n1 := 32) (j 0) (grp (j 1)) := by
  have h0 : (j 0).val < 4096 := (j 0).isLt
  have h1 : (j 1).val < 4096 := (j 1).isLt
  refine funext fun a => Fin.ext ?_
  match a with
  | ⟨0, _⟩ =>
    show ((j 0).val * 4096 + (j 1).val) / 4096 = (j 0).val
    omega
  | ⟨1, _⟩ =>
    show ((j 0).val * 4096 + (j 1).val) / 128 % 32 = (j 1).val / 128
    omega

/-- The offset subtracted at column k of row o is the one of row o and group k / 128. -/
theorem offset_index (j : S4096x4096.Idx) :
    idx_main_v5 (idx_main_v6 (idx_main_v8 j)) = ix2 (n0 := 4096) (n1 := 32) (j 0) (grp (j 1)) := by
  have h0 : (j 0).val < 4096 := (j 0).isLt
  have h1 : (j 1).val < 4096 := (j 1).isLt
  refine funext fun a => Fin.ext ?_
  match a with
  | ⟨0, _⟩ =>
    show ((j 0).val * 4096 + (j 1).val) / 4096 = (j 0).val
    omega
  | ⟨1, _⟩ =>
    show ((j 0).val * 4096 + (j 1).val) / 128 % 32 = (j 1).val / 128
    omega

/-- The reference's dequantized weight is the specification's. -/
theorem weight_eq (x1 : (⟨S4096x4096, .i32⟩ : BufTy).Contents (Elt Ideal))
    (x2 x3 : (⟨S4096x32, .f32⟩ : BufTy).Contents (Elt Ideal)) (j : S4096x4096.Idx) :
    val_main_v8 (F := Ideal) x1 x2 x3 j = wq x1 x2 x3 j := by
  rw [val_main_v8_apply, val_main_v7_apply, val_main_v4_apply, val_main_v6_apply, val_main_v1_apply,
    val_main_v3_apply, val_main_v5_apply, val_main_v0_apply, val_main_v2_apply, regroup_flatten, scale_index,
    offset_index]
  unfold wq
  simp only [Ideal.mulf_def, Ideal.subf_def]
  rfl

/-- The reference's result is the layer of the specification. -/
theorem ref_eq (x0 : (⟨Cert.ReferenceIdeal.S4x2048x4096, .f32⟩ : BufTy).Contents (Elt Ideal))
    (x1 : (⟨Cert.ReferenceIdeal.S4096x4096, .i32⟩ : BufTy).Contents (Elt Ideal))
    (x2 x3 : (⟨Cert.ReferenceIdeal.S4096x32, .f32⟩ : BufTy).Contents (Elt Ideal)) :
    Cert.ReferenceIdeal.Read.val_main_v9 (F := Ideal) x0 x1 x2 x3 = Cert.QuantLinear.out x0 x1 x2 x3 := by
  funext i
  rw [val_main_v9_apply]
  unfold Cert.QuantLinear.out
  refine Finset.sum_congr rfl fun k _ => ?_
  have el : lidx_main_v9 i k = ix3 (n0 := 4) (n1 := 2048) (n2 := 4096) (i 0) (i 1) k :=
    funext fun a => Fin.ext (by match a with | ⟨0, _⟩ => rfl | ⟨1, _⟩ => rfl | ⟨2, _⟩ => rfl)
  have er : ridx_main_v9 i k = ix2 (n0 := 4096) (n1 := 4096) (i 2) k :=
    funext fun a => Fin.ext (by match a with | ⟨0, _⟩ => rfl | ⟨1, _⟩ => rfl)
  rw [el, er, weight_eq]

end Cert.ReferenceIdeal.RefValue

end
-- ==== Proof.lean ====
/-
  A linear layer with a group-quantized weight, computed in two passes, against the plain formula.

  The weight matrix [4096, 4096] is stored as integer codes with one scale and one offset per row and per group of 128
  consecutive columns: w(o, k) = code(o, k) * scale(o, k / 128) - offset(o, k / 128). The layer is y(b, s, o) = the sum over
  k of x(b, s, k) * w(o, k). The kernel program first dequantizes the whole weight into a narrower float format (one pass
  over blocks of 1024 rows, 32 column groups each), then multiplies: the activations read as a matrix of 8192 rows against
  the weight, block by block, a block of the product accumulated over the four blocks of 1024 columns in a running sum kept
  between grid points. The reference dequantizes by reshaping to [4096, 32, 128] and broadcasting the per-group parameters,
  and takes one contraction over all 4096 columns.

  On the extended reals, where a change of float format is the identity, both are the same function of the four
  arguments: the dequantized entry is literally the same expression on both sides, and the two differ only in how the sum
  over k is grouped — four partial sums added to zero one after the other against one sum —, which associativity and
  commutativity of addition settle; nothing here needs the inputs finite. The frames: each program runs to the end on every
  weakly fair schedule and writes none of its arguments; for the two kernel programs that is the run of the two pipelined
  regions between the two reshapes, for the reference the run of its ten operations. The idealization rewrote nothing, so
  there is nothing to preserve.
-/
import proofs.«132169_j81449759801528_2_alg».proof.Defs
import proofs.«132169_j81449759801528_2_alg».proof.Proof.Gen.Kernel
import proofs.«132169_j81449759801528_2_alg».proof.Proof.Gen.KernelIdeal
import proofs.«132169_j81449759801528_2_alg».proof.Proof.Gen.ReferenceIdeal
import proofs.«132169_j81449759801528_2_alg».proof.Proof.Gen.ReferenceIdeal.Run
import proofs.«132169_j81449759801528_2_alg».proof.Proof.Gen.ReferenceIdeal.Read
import proofs.«132169_j81449759801528_2_alg».proof.Proof.Gen.Pre_finite_inputs
import proofs.«132169_j81449759801528_2_alg».proof.Proof.KRun
import proofs.«132169_j81449759801528_2_alg».proof.Proof.KRunB
import proofs.«132169_j81449759801528_2_alg».proof.Proof.KValue
import proofs.«132169_j81449759801528_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Run.frame m ρ

/-- So does the same program read on the extended reals. -/
theorem frame_kernelIdeal : Cert.frame_KernelIdeal := fun m ρ _ => Cert.KernelIdeal.Run.frame m ρ

/-- The reference's ten operations run and write no argument. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories that agree on the four arguments both programs end with the layer's output of those arguments in their
    result buffers: the kernel's by following its buffers through the two regions, the reference's by reading its ten
    operations at an index. -/
theorem algebraic : Cert.algebraic_KernelIdeal_ReferenceIdeal := by
  intro m ρ m' ρ' _ hagree
  refine ⟨fun c => Cert.QuantLinear.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Run.run_all m ρ)
    · exact (h c _ (Cert.KernelIdeal.Run.mem_uc Cert.KernelIdeal.main_v3 (by decide))).trans (Cert.KernelIdeal.KValue.result_eq m ρ c)
    · exact (h c _ (Cert.KernelIdeal.Run.mem_uc Cert.KernelIdeal.main_arg0 (by decide))).trans (Cert.KernelIdeal.Run.W4_main_arg0 m ρ c)
    · exact (h c _ (Cert.KernelIdeal.Run.mem_uc Cert.KernelIdeal.main_arg1 (by decide))).trans (Cert.KernelIdeal.Run.W4_main_arg1 m ρ c)
    · exact (h c _ (Cert.KernelIdeal.Run.mem_uc Cert.KernelIdeal.main_arg2 (by decide))).trans (Cert.KernelIdeal.Run.W4_main_arg2 m ρ c)
    · exact (h c _ (Cert.KernelIdeal.Run.mem_uc Cert.KernelIdeal.main_arg3 (by decide))).trans (Cert.KernelIdeal.Run.W4_main_arg3 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
